-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x300000 : Shape := ⟨2, ![2, 300000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S256 .f32) (main_arg7 : FVec F S256x1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg7
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x300000 32) (main_arg2 : IVec S100000 32) (main_arg3 : FVec F S128x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S100000x128 : Shape := ⟨2, ![100000, 128]⟩
abbrev S2x300000 : Shape := ⟨2, ![2, 300000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S100000x1 : Shape := ⟨2, ![100000, 1]⟩
abbrev S100000x256 : Shape := ⟨2, ![100000, 256]⟩
abbrev S5000x128 : Shape := ⟨2, ![5000, 128]⟩
abbrev S5000x256 : Shape := ⟨2, ![5000, 256]⟩
abbrev S300000x256 : Shape := ⟨2, ![300000, 256]⟩
abbrev S1x256 : Shape := ⟨2, ![1, 256]⟩
abbrev S5000x1 : Shape := ⟨2, ![5000, 1]⟩
abbrev S2048x256 : Shape := ⟨2, ![2048, 256]⟩
abbrev S2048 : Shape := ⟨1, ![2048]⟩
abbrev S2048x1 : Shape := ⟨2, ![2048, 1]⟩
abbrev S1x1 : Shape := ⟨2, ![1, 1]⟩

abbrev nBuf : Space → Nat
  | .hbm => 95
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x300000, .i32⟩
  | .hbm, ⟨2, _⟩ => ⟨S100000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S_, .f32⟩
  | .hbm, ⟨14, _⟩ => ⟨S300000, .f32⟩
  | .hbm, ⟨15, _⟩ => ⟨S_, .f32⟩
  | .hbm, ⟨16, _⟩ => ⟨S100000, .f32⟩
  | .hbm, ⟨17, _⟩ => ⟨S300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000, .f32⟩
  | .hbm, ⟨32, _⟩ => ⟨S_, .i32⟩
  | .hbm, ⟨33, _⟩ => ⟨S300000, .i32⟩
  | .hbm, ⟨34, _⟩ => ⟨S300000, .i1⟩
  | .hbm, ⟨35, _⟩ => ⟨S_, .i32⟩
  | .hbm, ⟨36, _⟩ => ⟨S300000, .i32⟩
  | .hbm, ⟨37, _⟩ => ⟨S300000, .i32⟩
  | .hbm, ⟨38, _⟩ => ⟨S300000, .i32⟩
  | .hbm, ⟨39, _⟩ => ⟨S300000x1, .i32⟩
  | .hbm, ⟨40, _⟩ => ⟨S300000, .f32⟩
  | .hbm, ⟨41, _⟩ => ⟨S300000, .f32⟩
  | .hbm, ⟨42, _⟩ => ⟨S100000, .f32⟩
  | .hbm, ⟨43, _⟩ => ⟨S100000x1, .f32⟩
  | .hbm, ⟨44, _⟩ => ⟨S100000x256, .f32⟩
  | .hbm, ⟨45, _⟩ => ⟨S_, .i32⟩
  | .hbm, ⟨46, _⟩ => ⟨S300000, .i32⟩
  | .hbm, ⟨47, _⟩ => ⟨S300000, .i1⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000x1, .i32⟩
  | .hbm, ⟨53, _⟩ => ⟨S300000x256, .f32⟩
  | .hbm, ⟨54, _⟩ => ⟨S300000x1, .f32⟩
  | .hbm, ⟨55, _⟩ => ⟨S300000x256, .f32⟩
  | .hbm, ⟨56, _⟩ => ⟨S300000x256, .f32⟩
  | .hbm, ⟨57, _⟩ => ⟨S_, .f32⟩
  | .hbm, ⟨58, _⟩ => ⟨S100000x256, .f32⟩
  | .hbm, ⟨59, _⟩ => ⟨S300000x1, .i32⟩
  | .hbm, ⟨60, _⟩ => ⟨S100000x256, .f32⟩
  | .hbm, ⟨61, _⟩ => ⟨S1x256, .f32⟩
  | .hbm, ⟨62, _⟩ => ⟨S100000x256, .f32⟩
  | .hbm, ⟨63, _⟩ => ⟨S100000x256, .f32⟩
  | .hbm, ⟨64, _⟩ => ⟨S_, .i32⟩
  | .hbm, ⟨65, _⟩ => ⟨S300000, .i32⟩
  | .hbm, ⟨66, _⟩ => ⟨S300000, .i1⟩
  | .hbm, ⟨67, _⟩ => ⟨S_, .i32⟩
  | .hbm, ⟨68, _⟩ => ⟨S300000, .i32⟩
  | .hbm, ⟨69, _⟩ => ⟨S300000, .i32⟩
  | .hbm, ⟨70, _⟩ => ⟨S300000, .i32⟩
  | .hbm, ⟨71, _⟩ => ⟨S300000x1, .i32⟩
  | .hbm, ⟨72, _⟩ => ⟨S300000x256, .f32⟩
  | .hbm, ⟨73, _⟩ => ⟨S300000x1, .f32⟩
  | .hbm, ⟨74, _⟩ => ⟨S300000x256, .f32⟩
  | .hbm, ⟨75, _⟩ => ⟨S300000x256, .f32⟩
  | .hbm, ⟨76, _⟩ => ⟨S_, .f32⟩
  | .hbm, ⟨77, _⟩ => ⟨S100000x256, .f32⟩
  | .hbm, ⟨78, _⟩ => ⟨S300000x1, .i32⟩
  | .hbm, ⟨79, _⟩ => ⟨S100000x256, .f32⟩
  | .hbm, ⟨80, _⟩ => ⟨S1x256, .f32⟩
  | .hbm, ⟨81, _⟩ => ⟨S100000x256, .f32⟩
  | .hbm, ⟨82, _⟩ => ⟨S_, .f32⟩
  | .hbm, ⟨83, _⟩ => ⟨S2048x256, .f32⟩
  | .hbm, ⟨84, _⟩ => ⟨S100000x1, .i32⟩
  | .hbm, ⟨85, _⟩ => ⟨S2048x256, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S2048, .f32⟩
  | .hbm, ⟨90, _⟩ => ⟨S100000x1, .i32⟩
  | .hbm, ⟨91, _⟩ => ⟨S2048, .f32⟩
  | .hbm, ⟨92, _⟩ => ⟨S2048x1, .f32⟩
  | .hbm, ⟨93, _⟩ => ⟨S1x1, .f32⟩
  | .hbm, ⟨94, _⟩ => ⟨S2048x1, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S256x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x1, .f32⟩
  | .local _ .vmem, ⟨24, _⟩ => ⟨S5000x1, .f32⟩
  | .local _ .vmem, ⟨25, _⟩ => ⟨S1x256, .f32⟩
  | .local _ .vmem, ⟨26, _⟩ => ⟨S5000x256, .f32⟩
  | .local _ .vmem, ⟨27, _⟩ => ⟨S5000x256, .f32⟩
  | .local _ .vmem, ⟨28, _⟩ => ⟨S2048x256, .f32⟩
  | .local _ .vmem, ⟨29, _⟩ => ⟨S2048x1, .f32⟩
  | .local _ .vmem, ⟨30, _⟩ => ⟨S256x1, .f32⟩
  | .local _ .vmem, ⟨31, _⟩ => ⟨S1x1, .f32⟩
  | .local _ .vmem, ⟨32, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S2048x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2048x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S100000 : S_.BroadcastsInDim S100000 (![] : Fin 0 → Fin S100000.rank)
  bcast_S300000_S300000x1_0 : S300000.BroadcastsInDim S300000x1 (![0] : Fin 1 → Fin S300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  shapeCasts_S256_S1x256 : S256.ShapeCasts S1x256
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  bcast_S_S2048x256 : S_.BroadcastsInDim S2048x256 (![] : Fin 0 → Fin S2048x256.rank)
  bcast_S100000_S100000x1_0 : S100000.BroadcastsInDim S100000x1 (![0] : Fin 1 → Fin S100000x1.rank)
  bcast_S_S2048 : S_.BroadcastsInDim S2048 (![] : Fin 0 → Fin S2048.rank)
  shapeCasts_S2048_S2048x1 : S2048.ShapeCasts S2048x1
  shapeCasts_S1_S1x1 : S1.ShapeCasts S1x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S2048x1_S2048x256 : S2048x1.Broadcasts S2048x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  dot_S5000x128_S128x256_S5000x256_1_0_0_1_n_n_wf : DotDims.WF S5000x128 S128x256 S5000x256 [1] [0] [0] [1] [] []
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S5000x256_S256x256_S5000x256_1_0_0_1_n_n_wf : DotDims.WF S5000x256 S256x256 S5000x256 [1] [0] [0] [1] [] []
  scatter_S2048x256_S100000x1_S100000x256_1_0_0_1_wf : ScatterDims.WF S2048x256 S100000x1 S100000x256 [1] [0] [0] 1
  scatter_S2048_S100000x1_S100000_n_0_0_1_wf : ScatterDims.WF S2048 S100000x1 S100000 [] [0] [0] 1
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .f32 = 32 ∨ (Rect.block (s := S100000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x256.size a ≤ S100000x256.size a
  hwx1_4 : ∀ i : grid1.Coords, EltTy.bits .f32 = 32 ∨ (Rect.block (s := S100000x256) S5000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S100000x256.size a
  hwx3_1 : ∀ i : grid3.Coords, EltTy.bits .f32 = 32 ∨ (Rect.block (s := S100000x256) S5000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x256.size a ≤ S100000x256.size a
  hwx3_4 : ∀ i : grid3.Coords, EltTy.bits .f32 = 32 ∨ (Rect.block (s := S100000x256) S5000x256.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S2048x256.size a
  hwx4_0 : ∀ i : grid4.Coords, EltTy.bits .f32 = 32 ∨ (Rect.block (s := S2048x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x1.size a ≤ S2048x1.size a
  hwx4_1 : ∀ i : grid4.Coords, EltTy.bits .f32 = 32 ∨ (Rect.block (s := S2048x1) S2048x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x1.size a ≤ S256x1.size a
  hwx4_2 : ∀ i : grid4.Coords, EltTy.bits .f32 = 32 ∨ (Rect.block (s := S256x1) S256x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2048x1.size a ≤ S2048x1.size a
  hwx4_4 : ∀ i : grid4.Coords, EltTy.bits .f32 = 32 ∨ (Rect.block (s := S2048x1) S2048x1.size (cc4_transform_4 i) (hinb4_4 i)).WholeWords (EltTy.packing .f32)

variable [Facts₀]

def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S2048x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v67) S2048x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S256x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S2048x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x300000 : Shape := ⟨2, ![2, 300000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S100000x256 : Shape := ⟨2, ![100000, 256]⟩
abbrev S_ : Shape := ⟨0, ![]⟩
abbrev S300000x1 : Shape := ⟨2, ![300000, 1]⟩
abbrev S300000x256 : Shape := ⟨2, ![300000, 256]⟩
abbrev S100000x1 : Shape := ⟨2, ![100000, 1]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S2x300000, .i32⟩
  | 2 => ⟨S100000, .i32⟩
  | 3 => ⟨S128x256, .f32⟩
  | 4 => ⟨S256, .f32⟩
  | 5 => ⟨S256x256, .f32⟩
  | 6 => ⟨S256, .f32⟩
  | 7 => ⟨S256x1, .f32⟩
  | 8 => ⟨S1, .f32⟩
  | 9 => ⟨S1x300000, .i32⟩
  | 10 => ⟨S300000, .i32⟩
  | 11 => ⟨S1x300000, .i32⟩
  | 12 => ⟨S300000, .i32⟩
  | 13 => ⟨S100000x256, .f32⟩
  | 14 => ⟨S_, .f32⟩
  | 15 => ⟨S300000, .f32⟩
  | 16 => ⟨S_, .f32⟩
  | 17 => ⟨S100000, .f32⟩
  | 18 => ⟨S300000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S300000, .i32⟩
  | 26 => ⟨S300000, .i1⟩
  | 27 => ⟨S_, .i32⟩
  | 28 => ⟨S300000, .i32⟩
  | 29 => ⟨S300000, .i32⟩
  | 30 => ⟨S300000, .i32⟩
  | 31 => ⟨S300000x1, .i32⟩
  | 32 => ⟨S300000, .f32⟩
  | 33 => ⟨S_, .i32⟩
  | 34 => ⟨S300000, .i32⟩
  | 35 => ⟨S300000, .i1⟩
  | 36 => ⟨S_, .i32⟩
  | 37 => ⟨S300000, .i32⟩
  | 38 => ⟨S300000, .i32⟩
  | 39 => ⟨S300000, .i32⟩
  | 40 => ⟨S300000x1, .i32⟩
  | 41 => ⟨S300000, .f32⟩
  | 42 => ⟨S300000, .f32⟩
  | 43 => ⟨S_, .i32⟩
  | 44 => ⟨S300000, .i32⟩
  | 45 => ⟨S300000, .i1⟩
  | 46 => ⟨S_, .i32⟩
  | 47 => ⟨S300000, .i32⟩
  | 48 => ⟨S300000, .i32⟩
  | 49 => ⟨S300000, .i32⟩
  | 50 => ⟨S300000x1, .i32⟩
  | 51 => ⟨S300000x256, .f32⟩
  | 52 => ⟨S300000x1, .f32⟩
  | 53 => ⟨S300000x256, .f32⟩
  | 54 => ⟨S300000x256, .f32⟩
  | 55 => ⟨S_, .f32⟩
  | 56 => ⟨S100000x256, .f32⟩
  | 57 => ⟨S300000x1, .i32⟩
  | 58 => ⟨S100000x256, .f32⟩
  | 59 => ⟨S100000, .f32⟩
  | 60 => ⟨S100000x1, .f32⟩
  | 61 => ⟨S100000x256, .f32⟩
  | 62 => ⟨S100000x256, .f32⟩
  | 63 => ⟨S100000x256, .f32⟩
  | 64 => ⟨S1x256, .f32⟩
  | 65 => ⟨S100000x256, .f32⟩
  | 66 => ⟨S100000x256, .f32⟩
  | 67 => ⟨S_, .f32⟩
  | 68 => ⟨S100000x256, .f32⟩
  | 69 => ⟨S100000x256, .f32⟩
  | 70 => ⟨S100000x256, .f32⟩
  | 71 => ⟨S_, .f32⟩
  | 72 => ⟨S300000, .f32⟩
  | 73 => ⟨S_, .f32⟩
  | 74 => ⟨S100000, .f32⟩
  | 75 => ⟨S300000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S300000, .i32⟩
  | 83 => ⟨S300000, .i1⟩
  | 84 => ⟨S_, .i32⟩
  | 85 => ⟨S300000, .i32⟩
  | 86 => ⟨S300000, .i32⟩
  | 87 => ⟨S300000, .i32⟩
  | 88 => ⟨S300000x1, .i32⟩
  | 89 => ⟨S300000, .f32⟩
  | 90 => ⟨S_, .i32⟩
  | 91 => ⟨S300000, .i32⟩
  | 92 => ⟨S300000, .i1⟩
  | 93 => ⟨S_, .i32⟩
  | 94 => ⟨S300000, .i32⟩
  | 95 => ⟨S300000, .i32⟩
  | 96 => ⟨S300000, .i32⟩
  | 97 => ⟨S300000x1, .i32⟩
  | 98 => ⟨S300000, .f32⟩
  | 99 => ⟨S300000, .f32⟩
  | 100 => ⟨S_, .i32⟩
  | 101 => ⟨S300000, .i32⟩
  | 102 => ⟨S300000, .i1⟩
  | 103 => ⟨S_, .i32⟩
  | 104 => ⟨S300000, .i32⟩
  | 105 => ⟨S300000, .i32⟩
  | 106 => ⟨S300000, .i32⟩
  | 107 => ⟨S300000x1, .i32⟩
  | 108 => ⟨S300000x256, .f32⟩
  | 109 => ⟨S300000x1, .f32⟩
  | 110 => ⟨S300000x256, .f32⟩
  | 111 => ⟨S300000x256, .f32⟩
  | 112 => ⟨S_, .f32⟩
  | 113 => ⟨S100000x256, .f32⟩
  | 114 => ⟨S300000x1, .i32⟩
  | 115 => ⟨S100000x256, .f32⟩
  | 116 => ⟨S100000, .f32⟩
  | 117 => ⟨S100000x1, .f32⟩
  | 118 => ⟨S100000x256, .f32⟩
  | 119 => ⟨S100000x256, .f32⟩
  | 120 => ⟨S100000x256, .f32⟩
  | 121 => ⟨S1x256, .f32⟩
  | 122 => ⟨S100000x256, .f32⟩
  | 123 => ⟨S100000x256, .f32⟩
  | 124 => ⟨S_, .f32⟩
  | 125 => ⟨S100000x256, .f32⟩
  | 126 => ⟨S100000x256, .f32⟩
  | 127 => ⟨S_, .f32⟩
  | _ => ⟨S100000x128, .f32⟩

abbrev hbmTy0_1 (i : Nat) : BufTy := match i % 128 with
  | 0 => ⟨S2048x256, .f32⟩
  | 1 => ⟨S100000x1, .i32⟩
  | 2 => ⟨S2048x256, .f32⟩
  | 3 => ⟨S_, .f32⟩
  | 4 => ⟨S100000, .f32⟩
  | 5 => ⟨S_, .f32⟩
  | 6 => ⟨S2048, .f32⟩
  | 7 => ⟨S100000x1, .i32⟩
  | 8 => ⟨S2048, .f32⟩
  | 9 => ⟨S_, .f32⟩
  | 10 => ⟨S2048, .f32⟩
  | 11 => ⟨S2048, .f32⟩
  | 12 => ⟨S2048x1, .f32⟩
  | 13 => ⟨S2048x256, .f32⟩
  | 14 => ⟨S2048x256, .f32⟩
  | 15 => ⟨S2048x1, .f32⟩
  | 16 => ⟨S1x1, .f32⟩
  | 17 => ⟨S2048x1, .f32⟩
  | 18 => ⟨S2048x1, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048x1, .f32⟩
  | 26 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_22 : Ref sig .tc := ⟨.hbm, 149, rfl⟩
abbrev main_v112 : Ref sig .tc := ⟨.hbm, 150, rfl⟩
abbrev main_v113 : Ref sig .tc := ⟨.hbm, 151, rfl⟩
abbrev main_cst_23 : Ref sig .tc := ⟨.hbm, 152, rfl⟩
abbrev main_v114 : Ref sig .tc := ⟨.hbm, 153, rfl⟩
abbrev main_v115 : Ref sig .tc := ⟨.hbm, 154, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S100000 : S_.BroadcastsInDim S100000 (![] : Fin 0 → Fin S100000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  dot_S100000x128_S128x256_S100000x256_1_0_0_1_n_n_wf : DotDims.WF S100000x128 S128x256 S100000x256 [1] [0] [0] [1] [] []
  scatter_S100000_S300000x1_S300000_n_0_0_1_wf : ScatterDims.WF S100000 S300000x1 S300000 [] [0] [0] 1
  gather_S100000_S300000x1_S300000_n_0_n_n_0_1_1_wf : GatherDims.WF S100000 S300000x1 S300000 [] [0] [] [0] [] 1 ![1]
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S100000x256_S256x256_S100000x256_1_0_0_1_n_n_wf : DotDims.WF S100000x256 S256x256 S100000x256 [1] [0] [0] [1] [] []
  scatter_S2048x256_S100000x1_S100000x256_1_0_0_1_wf : ScatterDims.WF S2048x256 S100000x1 S100000x256 [1] [0] [0] 1
  scatter_S2048_S100000x1_S100000_n_0_0_1_wf : ScatterDims.WF S2048 S100000x1 S100000 [] [0] [0] 1
  dot_S2048x256_S256x1_S2048x1_1_0_0_1_n_n_wf : DotDims.WF S2048x256 S256x1 S2048x1 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

class Facts : Prop extends Facts₀ where

variable [Facts]
-- ==== Proof.KernelRun.lean ====
/-
  The kernel program's run with its result named.

  Every weakly fair execution of the five-region program terminates without a fault; at the end the result buffer
  holds what the last boundary's contents hold there, and the nine argument arrays are as launched.  The contents at
  the segment boundaries are the fold through the program: a stretch of host operations rewrites the buffers it
  computes, a kernel region rewrites its output array to what its write-backs leave.
-/
import proofs.«158380_j24988119728496_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Whole

end
-- ==== Proof.Stages.lean ====
/-
  The host side of the kernel program, stage by stage.

  Around its five kernel regions the program computes, from the edge list: the source and destination node of each
  edge; the symmetric normalisation 1/sqrt(deg) of each node (deg counts incoming edges plus the self loop), its
  product over an edge's two ends, and its square as a one-column array; from a dense transform h the aggregated
  messages (each edge carries row src of h scaled by the edge's normalisation to row dst); a bias vector laid out as
  a one-row array; and for the pooling the per-graph sums of the node rows and the per-graph node counts as a
  one-column array.  Each is one function of the arrays it reads.
-/
import proofs.«158380_j24988119728496_1_alg».proof.Proof.Gen.KernelIdeal
import Idealize.ShloMosaic.PureOps.Ideal

noncomputable section

namespace Cert.KernelIdeal.Stages

open Cert.KernelIdeal Cert.KernelIdeal.Facts₀ Cert.KernelIdeal.Facts Idealize.ShloMosaic

/-- Integer and float arrays of a literal shape, at the ideal values. -/
abbrev IArr (s : Shape) : Type := IVec s 32
abbrev FArr (s : Shape) : Type := FVec Ideal s .f32

/-- Row 0 of the edge list: each edge's source node. -/
def src (ei : IArr S2x300000) : IArr S300000 :=
  shapeCast _ (extractStridedSlice S1x300000 ![0, 0] ei slices_S2x300000_S1x300000_0_0) shapeCasts_S1x300000_S300000

/-- Row 1 of the edge list: each edge's destination node. -/
def dst (ei : IArr S2x300000) : IArr S300000 :=
  shapeCast _ (extractStridedSlice S1x300000 ![1, 0] ei slices_S2x300000_S1x300000_1_0) shapeCasts_S1x300000_S300000

/-- Node numbers as a one-column list of row indices, a negative number counted from the end. -/
def rowIndex (v : IArr S300000) : IArr S300000x1 :=
  broadcastInDim S300000x1 ![0] bcast_S300000_S300000x1_0
    (select (cmpi .slt v (broadcastInDim S300000 ![] bcast_S_S300000 (constantI S_ 32 0#32)))
      (addi v (broadcastInDim S300000 ![] bcast_S_S300000 (constantI S_ 32 100000#32))) v)

/-- 1/sqrt(deg): deg the number of edges arriving at the node, plus one for the self loop. -/
def invSqrtDeg (d : IArr S300000) : FArr S100000 :=
  Host.rsqrt (F := Ideal) (addf
    (Host.scatterAdd (F := Ideal) scatter_S100000_S300000x1_S300000_n_0_0_1
      (broadcastInDim S100000 ![] bcast_S_S100000 (constant (F := Ideal) S_ .f32 0x00000000#32))
      (broadcastInDim S300000x1 ![0] bcast_S300000_S300000x1_0 d)
      (broadcastInDim S300000 ![] bcast_S_S300000 (constant (F := Ideal) S_ .f32 0x3F800000#32)))
    (broadcastInDim S100000 ![] bcast_S_S100000 (constant (F := Ideal) S_ .f32 0x3F800000#32)))

/-- An edge's normalisation: the product of 1/sqrt(deg) at its two ends. -/
def edgeNorm (s d : IArr S300000) (dinv : FArr S100000) : FArr S300000 :=
  mulf (Host.gather gather_S100000_S300000x1_S300000_n_0_n_n_0_1_1 dinv (rowIndex s))
    (Host.gather gather_S100000_S300000x1_S300000_n_0_n_n_0_1_1 dinv (rowIndex d))

/-- 1/deg as a one-column array: the self loop's weight. -/
def selfWeight (dinv : FArr S100000) : FArr S100000x1 :=
  shapeCast _ (mulf dinv dinv) shapeCasts_S100000_S100000x1

/-- The aggregated messages: row src of h, scaled by the edge's normalisation, added into row dst. -/
def aggregate (h : FArr S100000x256) (s d : IArr S300000) (nrm : FArr S300000) : FArr S100000x256 :=
  Host.scatterAdd (F := Ideal) scatter_S100000x256_S300000x1_S300000x256_1_0_0_1
    (broadcastInDim S100000x256 ![] bcast_S_S100000x256 (constant (F := Ideal) S_ .f32 0x00000000#32))
    (broadcastInDim S300000x1 ![0] bcast_S300000_S300000x1_0 d)
    (mulf (Host.gather gather_S100000x256_S300000x1_S300000x256_1_0_n_n_0_1_1256 h (rowIndex s))
      (broadcastInDim S300000x256 ![0, 1] bcast_S300000x1_S300000x256_0_1
        (broadcastInDim S300000x1 ![0] bcast_S300000_S300000x1_0 nrm)))

/-- A bias vector as a one-row array. -/
def biasRow (b : FArr S256) : FArr S1x256 := shapeCast _ b shapeCasts_S256_S1x256

/-- The per-graph sums of the node rows. -/
def graphSums (h : FArr S100000x256) (batch : IArr S100000) : FArr S2048x256 :=
  Host.scatterAdd (F := Ideal) scatter_S2048x256_S100000x1_S100000x256_1_0_0_1
    (broadcastInDim S2048x256 ![] bcast_S_S2048x256 (constant (F := Ideal) S_ .f32 0x00000000#32))
    (broadcastInDim S100000x1 ![0] bcast_S100000_S100000x1_0 batch) h

/-- The per-graph node counts. -/
def graphCounts (batch : IArr S100000) : FArr S2048 :=
  Host.scatterAdd (F := Ideal) scatter_S2048_S100000x1_S100000_n_0_0_1
    (broadcastInDim S2048 ![] bcast_S_S2048 (constant (F := Ideal) S_ .f32 0x00000000#32))
    (broadcastInDim S100000x1 ![0] bcast_S100000_S100000x1_0 batch)
    (broadcastInDim S100000 ![] bcast_S_S100000 (constant (F := Ideal) S_ .f32 0x3F800000#32))

/-- The counts as a one-column array. -/
def countColumn (batch : IArr S100000) : FArr S2048x1 := shapeCast _ (graphCounts batch) shapeCasts_S2048_S2048x1

/-- The head's bias as a one-entry array. -/
def biasCell (bf : FArr S1) : FArr S1x1 := shapeCast _ bf shapeCasts_S1_S1x1

end Cert.KernelIdeal.Stages

end
-- ==== Proof.Stretches.lean ====
/-
  The four stretches of host operations of the kernel program, read.

  Whatever the buffers hold when a stretch starts, after it each buffer the stretch computes holds the stage function
  of the buffers the stretch reads: the first stretch leaves the two rows of the edge list, the edges' normalisation
  and the self-loop weights; the second and third leave the aggregated messages of the dense transform before them
  and the layer's bias as a row; the last leaves the per-graph sums, the per-graph counts as a column and the head's
  bias as a cell.
-/
import proofs.«158380_j24988119728496_1_alg».proof.Proof.Gen.KernelIdeal.Launch
import proofs.«158380_j24988119728496_1_alg».proof.Proof.Stages
import Idealize.ShloMosaic.Lib.StableHlo.Run

set_option maxRecDepth 16384

noncomputable section

namespace Cert.KernelIdeal.Stretches

open Cert.KernelIdeal Cert.KernelIdeal.Gen Cert.KernelIdeal.Stages
open Idealize.ShloMosaic Idealize.ShloMosaic.TcCoe Idealize.SL.Sem Idealize.ShloMosaic.StableHlo

variable (W : Valuation τ sig (Elt Ideal))

/-! ## Before the first region -/

theorem first_src : after (hostOps0 (F := Ideal)) W (Proc.devRef .tc main_v1) = src (W (Proc.devRef .tc main_arg1)) := by
  after_results_simp <;> rfl

theorem first_dst : after (hostOps0 (F := Ideal)) W (Proc.devRef .tc main_v3) = dst (W (Proc.devRef .tc main_arg1)) := by
  after_results_simp <;> rfl

theorem first_edgeNorm : after (hostOps0 (F := Ideal)) W (Proc.devRef .tc main_v25)
    = edgeNorm (src (W (Proc.devRef .tc main_arg1))) (dst (W (Proc.devRef .tc main_arg1)))
        (invSqrtDeg (dst (W (Proc.devRef .tc main_arg1)))) := by
  after_results_simp <;> rfl

theorem first_selfWeight : after (hostOps0 (F := Ideal)) W (Proc.devRef .tc main_v27)
    = selfWeight (invSqrtDeg (dst (W (Proc.devRef .tc main_arg1)))) := by
  after_results_simp <;> rfl

/-! ## Between the first transform and the first layer's epilogue -/

theorem second_aggregate : after (hostOps1 (F := Ideal)) W (Proc.devRef .tc main_v41)
    = aggregate (W (Proc.devRef .tc main_v28)) (W (Proc.devRef .tc main_v1)) (W (Proc.devRef .tc main_v3))
        (W (Proc.devRef .tc main_v25)) := by
  after_results_simp <;> rfl

theorem second_biasRow : after (hostOps1 (F := Ideal)) W (Proc.devRef .tc main_v42) = biasRow (W (Proc.devRef .tc main_arg4)) := by
  after_results_simp <;> rfl

/-! ## Between the second transform and the second layer's epilogue -/

theorem third_aggregate : after (hostOps3 (F := Ideal)) W (Proc.devRef .tc main_v57)
    = aggregate (W (Proc.devRef .tc main_v44)) (W (Proc.devRef .tc main_v1)) (W (Proc.devRef .tc main_v3))
        (W (Proc.devRef .tc main_v25)) := by
  after_results_simp <;> rfl

theorem third_biasRow : after (hostOps3 (F := Ideal)) W (Proc.devRef .tc main_v58) = biasRow (W (Proc.devRef .tc main_arg6)) := by
  after_results_simp <;> rfl

/-! ## Before the head -/

theorem last_graphSums : after (hostOps4 (F := Ideal)) W (Proc.devRef .tc main_v62)
    = graphSums (W (Proc.devRef .tc main_v59)) (W (Proc.devRef .tc main_arg2)) := by
  after_results_simp <;> rfl

theorem last_countColumn : after (hostOps4 (F := Ideal)) W (Proc.devRef .tc main_v67) = countColumn (W (Proc.devRef .tc main_arg2)) := by
  after_results_simp <;> rfl

theorem last_biasCell : after (hostOps4 (F := Ideal)) W (Proc.devRef .tc main_v68) = biasCell (W (Proc.devRef .tc main_arg8)) := by
  after_results_simp <;> rfl

end Cert.KernelIdeal.Stretches

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«158380_j24988119728496_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibTileOps.lean ====
/-
  The three array operations a two-layer graph convolution is made of, entry by entry, and the two ways each is spelt.

  * `matProd x w`: the matrix product, entry (p, c) the sum over k of x(p, k) · w(k, c).
  * `scaleRows x n`: row p of x multiplied by the p-th entry of a one-column array n.
  * `addRow x b`: a one-row array b added to every row of x; `addRowClamp x b` the same, then the maximum with the
    zero literal's value.

  Each is what a tiled kernel computes block by block, and each is also a composition of whole-array host operations:
  a dot_general; a product with a vector broadcast to one column and then along the rows; a sum with a vector broadcast
  to one row and then down the columns; and a maximum with a broadcast scalar.  A vector cast to a column (or a row)
  and the same vector broadcast to a column (or a row) are the same array, which is where the two spellings meet.
  Nothing here needs an entry to be finite: every equation is the same product, sum or maximum of the same entries.
  Generic in the extents A, K, B and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«158380_j24988119728496_1_alg».proof.Proof.LibPlainDotFormats
import proofs.«158380_j24988119728496_1_alg».proof.Proof.LibKeepdims
import proofs.«158380_j24988119728496_1_alg».proof.Proof.LibJoinedRows
import proofs.«158380_j24988119728496_1_alg».proof.Proof.LibRowBcast

noncomputable section

namespace Cert.LibTileOps

open Idealize.ShloMosaic Idealize.ShloMosaic.ValueIdx
open scoped BigOperators

variable {A K B : ℕ}

/-- The matrix product, entry by entry. -/
def matProd (x : FVec Ideal ⟨2, ![A, K]⟩ .f32) (w : FVec Ideal ⟨2, ![K, B]⟩ .f32) : FVec Ideal ⟨2, ![A, B]⟩ .f32 :=
  fun i => ∑ k : Fin K, x (ix2 (i 0) k) * w (ix2 k (i 1))

/-- Row `p` multiplied by entry `p` of a one-column array. -/
def scaleRows (x : FVec Ideal ⟨2, ![A, B]⟩ .f32) (n : FVec Ideal ⟨2, ![A, 1]⟩ .f32) : FVec Ideal ⟨2, ![A, B]⟩ .f32 :=
  fun i => x i * n (ix2 (i 0) (0 : Fin 1))

/-- A one-row array added to every row. -/
def addRow (x : FVec Ideal ⟨2, ![A, B]⟩ .f32) (b : FVec Ideal ⟨2, ![1, B]⟩ .f32) : FVec Ideal ⟨2, ![A, B]⟩ .f32 :=
  fun i => x i + b (ix2 (0 : Fin 1) (i 1))

/-- A one-row array added to every row, then the maximum with the zero literal's value. -/
def addRowClamp (x : FVec Ideal ⟨2, ![A, B]⟩ .f32) (b : FVec Ideal ⟨2, ![1, B]⟩ .f32) : FVec Ideal ⟨2, ![A, B]⟩ .f32 :=
  fun i => max (x i + b (ix2 (0 : Fin 1) (i 1))) (Ideal.ofBits .f32 0x00000000#32)

theorem matProd_apply (x : FVec Ideal ⟨2, ![A, K]⟩ .f32) (w : FVec Ideal ⟨2, ![K, B]⟩ .f32) (p : Fin A) (c : Fin B) :
    matProd x w (ix2 p c) = ∑ k : Fin K, x (ix2 p k) * w (ix2 k c) := rfl

theorem scaleRows_apply (x : FVec Ideal ⟨2, ![A, B]⟩ .f32) (n : FVec Ideal ⟨2, ![A, 1]⟩ .f32) (p : Fin A) (q : Fin B) :
    scaleRows x n (ix2 p q) = x (ix2 p q) * n (ix2 p (0 : Fin 1)) := rfl

theorem addRow_apply (x : FVec Ideal ⟨2, ![A, B]⟩ .f32) (b : FVec Ideal ⟨2, ![1, B]⟩ .f32) (p : Fin A) (q : Fin B) :
    addRow x b (ix2 p q) = x (ix2 p q) + b (ix2 (0 : Fin 1) q) := rfl

theorem addRowClamp_apply (x : FVec Ideal ⟨2, ![A, B]⟩ .f32) (b : FVec Ideal ⟨2, ![1, B]⟩ .f32) (p : Fin A) (q : Fin B) :
    addRowClamp x b (ix2 p q) = max (x (ix2 p q) + b (ix2 (0 : Fin 1) q)) (Ideal.ofBits .f32 0x00000000#32) := rfl

/-! ## The host spellings -/

/-- A host dot_general of plain dimension numbers is the matrix product. -/
theorem dotGeneral_eq_matProd {D : DotDims ⟨2, ![A, K]⟩ ⟨2, ![K, B]⟩ ⟨2, ![A, B]⟩} (h : Cert.LibPlainDot.Plain D)
    (prec : Option ContractPrecision) (x : FVec Ideal ⟨2, ![A, K]⟩ .f32) (w : FVec Ideal ⟨2, ![K, B]⟩ .f32) :
    Host.dotGeneral D prec x w = matProd x w := by
  funext i
  obtain ⟨p, c, rfl⟩ : ∃ (p : Fin A) (c : Fin B), i = ix2 p c := ⟨i 0, i 1, eq_ix2 i⟩
  simp only [Host.dotGeneral]
  exact h.dotGeneral_apply prec _ x w p c

/-- A product with a vector broadcast to one column and then along the rows scales row `p` by the vector's entry
    `p`: the vector cast to a column is the same column. -/
theorem mulf_bcast_col_eq_scaleRows
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hc : (⟨1, ![A]⟩ : Shape).ShapeCasts ⟨2, ![A, 1]⟩)
    (y : FVec Ideal ⟨2, ![A, B]⟩ .f32) (n : FVec Ideal ⟨1, ![A]⟩ .f32) :
    mulf y (broadcastInDim ⟨2, ![A, B]⟩ ![0, 1] h2 (broadcastInDim ⟨2, ![A, 1]⟩ ![0] h1 n))
      = scaleRows y (shapeCast ⟨2, ![A, 1]⟩ n hc) := by
  funext i
  obtain ⟨p, q, rfl⟩ : ∃ (p : Fin A) (q : Fin B), i = ix2 p q := ⟨i 0, i 1, eq_ix2 i⟩
  rw [scaleRows_apply, mulf_apply, Cert.LibJoinedRows.bcast_col_rows_apply, Cert.LibJoinedRows.bcast_vec_col_apply,
    Cert.LibKeepdims.shapeCast_a_a1_apply]

/-- A sum with a vector broadcast to one row and then down the columns adds the vector's entry `q` to column `q`:
    the vector cast to a row is the same row. -/
theorem addf_bcast_row_eq_addRow
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (y : FVec Ideal ⟨2, ![A, B]⟩ .f32) (b : FVec Ideal ⟨1, ![B]⟩ .f32) :
    addf y (broadcastInDim ⟨2, ![A, B]⟩ ![0, 1] h2 (broadcastInDim ⟨2, ![1, B]⟩ ![1] h1 b))
      = addRow y (shapeCast ⟨2, ![1, B]⟩ b hc) := by
  funext i
  obtain ⟨p, q, rfl⟩ : ∃ (p : Fin A) (q : Fin B), i = ix2 p q := ⟨i 0, i 1, eq_ix2 i⟩
  rw [addRow_apply, addf_apply, Cert.LibRowBcast.bcast_vec_rows_apply, shapeCast_a_1a_apply]

/-- The same, followed by the maximum with a broadcast zero literal. -/
theorem maximumf_addf_bcast_row_eq_addRowClamp
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩)
    (h0 : (⟨0, ![]⟩ : Shape).BroadcastsInDim ⟨2, ![A, B]⟩ (![] : Fin 0 → Fin 2))
    (y : FVec Ideal ⟨2, ![A, B]⟩ .f32) (b : FVec Ideal ⟨1, ![B]⟩ .f32) :
    maximumf (addf y (broadcastInDim ⟨2, ![A, B]⟩ ![0, 1] h2 (broadcastInDim ⟨2, ![1, B]⟩ ![1] h1 b)))
        (broadcastInDim ⟨2, ![A, B]⟩ ![] h0 (constant (F := Ideal) ⟨0, ![]⟩ .f32 0x00000000#32))
      = addRowClamp y (shapeCast ⟨2, ![1, B]⟩ b hc) := by
  funext i
  obtain ⟨p, q, rfl⟩ : ∃ (p : Fin A) (q : Fin B), i = ix2 p q := ⟨i 0, i 1, eq_ix2 i⟩
  rw [addRowClamp_apply, maximumf_apply, addf_apply, Cert.LibRowBcast.bcast_vec_rows_apply, shapeCast_a_1a_apply,
    Cert.LibJoinedRows.bcast_scalar_apply, constant_apply]

end Cert.LibTileOps

end
-- ==== Proof.Region0.lean ====
/-
  The first dense transform, as one array.

  The first kernel region multiplies a 5000-row block of its left operand by the whole right operand and writes the
  5000-row block of the product; twenty such blocks tile the 100000 rows.  Entry (r, q) of the array the region
  leaves is therefore the matrix product's entry: the sum over k of left(r, k) * right(k, q), whatever the region
  found in its two operand arrays.
-/
import proofs.«158380_j24988119728496_1_alg».proof.Proof.Gen.KernelIdeal.Frame
import proofs.«158380_j24988119728496_1_alg».proof.Proof.LibTileOps
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibTileOps

variable (V : (c : Dev nD) → (b : Ref sig .tc) → Buf (Elt Ideal) ((c : Thread nD τ).loc b))

theorem origin : (![0, 0] : Fin 2 → Nat) = fun _ => 0 := funext fun a => by fin_cases a <;> rfl

/-- The block product's dimension numbers are those of a plain matrix product. -/
theorem plain : Cert.LibPlainDot.Plain dot_S5000x128_S128x256_S5000x256_1_0_0_1_n_n := ⟨rfl, rfl, rfl, rfl, rfl, rfl⟩

/-- The array the region leaves: the product of the two operand arrays it found. -/
def product (c : Dev nD) : FVec Ideal S100000x256 .f32 :=
  matProd (A := 100000) (K := 128) (B := 256) (V c main_arg0) (V c main_arg3)

/-- One entry of a block's product is the sum over the contracted axis. -/
theorem block_apply (x0 : FVec Ideal S5000x128 .f32) (x1 : FVec Ideal S128x256 .f32) (p : Fin 5000) (q : Fin 256) :
    k0_pay1 (F := Ideal) x0 x1 (ix2 p q) = ∑ k : Fin 128, x0 (ix2 p k) * x1 (ix2 k q) := by
  unfold k0_pay1
  exact plain.matmul_zero_apply none x0 x1 p q

/-- A block whose rows are rows r.. of the left array and whose right operand is the whole right array has the
    product's entry (r, q) at (p, q). -/
theorem block_entry (A : FVec Ideal S100000x128 .f32) (B : FVec Ideal S128x256 .f32)
    (x0 : FVec Ideal S5000x128 .f32) (x1 : FVec Ideal S128x256 .f32) (r : Fin 100000) (p : Fin 5000) (q : Fin 256)
    (h0 : ∀ k : Fin 128, x0 (ix2 p k) = A (ix2 r k)) (h1 : ∀ k : Fin 128, x1 (ix2 k q) = B (ix2 k q)) :
    k0_pay1 (F := Ideal) x0 x1 (ix2 p q) = matProd (A := 100000) (K := 128) (B := 256) A B (ix2 r q) := by
  rw [block_apply, matProd_apply]
  exact Finset.sum_congr rfl fun k _ => by rw [h0, h1]

/-- The block indices over the grid: the left operand and the result move down the rows together, the right operand
    stays. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some grid point's. -/
theorem index_onto : ∀ (q0 : Fin 20), ∃ t : Fin cfg0.N, win0_2.index t = ![q0.val, 0] :=
  (by decide +kernel : ∀ (q0 : Fin 20), ∃ t : Fin grid0.N, win0_2.index t = ![q0.val, 0])

/-- What grid point t writes back is block t of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x256) origin]
  obtain ⟨e0, e1, e2, e3, e4, e5⟩ := index_facts t
  funext j
  obtain ⟨p, q, rfl⟩ : ∃ (p : Fin 5000) (q : Fin 256), j = ix2 p q := ⟨j 0, j 1, eq_ix2 j⟩
  have hp : p.val < 5000 := p.isLt
  have hr : win0_2.index t (0 : Fin 2) * 5000 + p.val < 100000 := by omega
  rw [View.read_apply]
  have e_out : ((cfg0.win 2).blk t).view.emb (ix2 p q) = ix2 (⟨win0_2.index t (0 : Fin 2) * 5000 + p.val, hr⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 256 + 1 * q.val = q.val; omega
  rw [e_out]
  unfold product
  refine block_entry _ _ _ _ ⟨win0_2.index t (0 : Fin 2) * 5000 + p.val, hr⟩ p q (fun k => ?_) (fun k => ?_)
  · show V c main_arg0 (((cfg0.win 0).blk t).view.emb (ix2 p k)) = V c main_arg0 (ix2 (⟨win0_2.index t (0 : Fin 2) * 5000 + p.val, hr⟩ : Fin 100000) k)
    refine congrArg _ ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · show V c main_arg3 (((cfg0.win 1).blk t).view.emb (ix2 k q)) = V c main_arg3 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 256 + 1 * q.val = q.val; omega

/-- An index of the result array is in point t's block iff its coordinates are in the block's ranges. -/
theorem mem_blk (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v28).slice (win0_2.rect t)).set ↔ _
  rw [View.set_slice_whole, Rect.mem_set_unit]
  exact Iff.rfl

/-- The twenty blocks cover the array: row r lies in block r / 5000. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The array the region leaves is the product of the operand arrays it found. -/
theorem final (c : Dev nD) : (dat0 V c).arrAt 2 cfg0.N = product V c :=
  (dat0 V c).arrAt_eq_of_cover 2 (product V c) (fun t _ => flushed_eq V c t) (cover)

end Cert.KernelIdeal.Region0

end
-- ==== Proof.LibGcnLayer.lean ====
/-
  A graph-convolution layer's epilogue and a mean-pooled logistic head, entry by entry, and their host spellings.

  * `epilogue agg h n b`: entry (p, q) is max(agg(p, q) + h(p, q) * n(p) + b(q), 0) — the aggregated messages plus
    the self-loop term (row p of h scaled by the p-th entry of a one-column array) plus a one-row bias, clamped at
    the zero literal's value.
  * `meanRows s c`: entry (g, k) is s(g, k) / max(c(g), 1), the g-th entry of a one-column array of counts clamped
    below at the literal one.
  * `logisticHead s c w b`: entry (g, u) is logistic((Σ_k meanRows(g, k) * w(k, u)) + b(u)).

  Each is also a composition of whole-array host operations (sums, products, maxima and quotients with broadcast
  vectors and scalars, a dot_general, and the logistic function written as 1 / (1 + exp(-z))); the two agree entry
  by entry because a vector cast to a column or a row is the same array as that vector broadcast to it, and because
  the logistic function IS that quotient on every extended real.  Nothing here needs an entry to be finite.  Generic
  in the extents and in the records of the host operations.
-/
import Idealize.ShloMosaic.PureOps.Ideal.Laws
import Idealize.ShloMosaic.Lib.ValueIdx
import Idealize.ShloMosaic.Lib.ValueLayout
import Idealize.ShloMosaic.Lib.Pipeline.Value
import proofs.«158380_j24988119728496_1_alg».proof.Proof.LibTileOps

noncomputable section

namespace Cert.LibGcnLayer

open Idealize.ShloMosaic Idealize.ShloMosaic.ValueIdx Cert.LibTileOps
open scoped BigOperators

variable {A K B : ℕ}

/-- The f32 word of 1.0 is the number one. -/
theorem ofBits_one : Ideal.ofBits .f32 0x3F800000#32 = 1 := by
  simp [Ideal.ofBits, Ideal.ieee, -EReal.coe_mul]; norm_num

/-! ## The layer's epilogue -/

/-- Aggregated messages plus the self-loop term plus the bias row, clamped at zero. -/
def epilogue (agg h : FVec Ideal ⟨2, ![A, B]⟩ .f32) (n : FVec Ideal ⟨2, ![A, 1]⟩ .f32) (b : FVec Ideal ⟨2, ![1, B]⟩ .f32) :
    FVec Ideal ⟨2, ![A, B]⟩ .f32 :=
  addRowClamp (addf agg (scaleRows h n)) b

theorem epilogue_apply (agg h : FVec Ideal ⟨2, ![A, B]⟩ .f32) (n : FVec Ideal ⟨2, ![A, 1]⟩ .f32) (b : FVec Ideal ⟨2, ![1, B]⟩ .f32)
    (p : Fin A) (q : Fin B) :
    epilogue agg h n b (ix2 p q)
      = max ((agg (ix2 p q) + h (ix2 p q) * n (ix2 p (0 : Fin 1))) + b (ix2 (0 : Fin 1) q)) (Ideal.ofBits .f32 0x00000000#32) := rfl

/-- The host spelling: sum with the row-scaled transform, sum with the broadcast bias, maximum with a broadcast zero. -/
theorem host_epilogue
    (n1 : (⟨1, ![A]⟩ : Shape).BroadcastsInDim ⟨2, ![A, 1]⟩ (![0] : Fin 1 → Fin 2))
    (n2 : (⟨2, ![A, 1]⟩ : Shape).BroadcastsInDim ⟨2, ![A, B]⟩ (![0, 1] : Fin 2 → Fin 2))
    (nc : (⟨1, ![A]⟩ : Shape).ShapeCasts ⟨2, ![A, 1]⟩)
    (b1 : (⟨1, ![B]⟩ : Shape).BroadcastsInDim ⟨2, ![1, B]⟩ (![1] : Fin 1 → Fin 2))
    (b2 : (⟨2, ![1, B]⟩ : Shape).BroadcastsInDim ⟨2, ![A, B]⟩ (![0, 1] : Fin 2 → Fin 2))
    (bc : (⟨1, ![B]⟩ : Shape).ShapeCasts ⟨2, ![1, B]⟩)
    (z0 : (⟨0, ![]⟩ : Shape).BroadcastsInDim ⟨2, ![A, B]⟩ (![] : Fin 0 → Fin 2))
    (agg h : FVec Ideal ⟨2, ![A, B]⟩ .f32) (n : FVec Ideal ⟨1, ![A]⟩ .f32) (b : FVec Ideal ⟨1, ![B]⟩ .f32) :
    maximumf (addf (addf agg (mulf h (broadcastInDim ⟨2, ![A, B]⟩ ![0, 1] n2 (broadcastInDim ⟨2, ![A, 1]⟩ ![0] n1 n))))
          (broadcastInDim ⟨2, ![A, B]⟩ ![0, 1] b2 (broadcastInDim ⟨2, ![1, B]⟩ ![1] b1 b)))
        (broadcastInDim ⟨2, ![A, B]⟩ ![] z0 (constant (F := Ideal) ⟨0, ![]⟩ .f32 0x00000000#32))
      = epilogue agg h (shapeCast ⟨2, ![A, 1]⟩ n nc) (shapeCast ⟨2, ![1, B]⟩ b bc) := by
  rw [maximumf_addf_bcast_row_eq_addRowClamp b1 b2 bc z0, mulf_bcast_col_eq_scaleRows n1 n2 nc]
  rfl

/-! ## Mean rows -/

/-- Row g divided by its count, the count clamped below at one. -/
def meanRows (s : FVec Ideal ⟨2, ![A, B]⟩ .f32) (c : FVec Ideal ⟨2, ![A, 1]⟩ .f32) : FVec Ideal ⟨2, ![A, B]⟩ .f32 :=
  fun j => Ideal.div (s j) (max (c (ix2 (j 0) (0 : Fin 1))) (Ideal.ofBits .f32 0x3F800000#32))

theorem meanRows_apply (s : FVec Ideal ⟨2, ![A, B]⟩ .f32) (c : FVec Ideal ⟨2, ![A, 1]⟩ .f32) (g : Fin A) (k : Fin B) :
    meanRows s c (ix2 g k) = Ideal.div (s (ix2 g k)) (max (c (ix2 g (0 : Fin 1))) (Ideal.ofBits .f32 0x3F800000#32)) := rfl

/-- The host spelling: the counts clamped as a vector, made a column, spread along the rows, and divided into. -/
theorem host_meanRows
    (o1 : (⟨0, ![]⟩ : Shape).BroadcastsInDim ⟨1, ![A]⟩ (![] : Fin 0 → Fin 1))
    (c1 : (⟨1, ![A]⟩ : Shape).BroadcastsInDim ⟨2, ![A, 1]⟩ (![0] : Fin 1 → Fin 2))
    (c2 : (⟨2, ![A, 1]⟩ : Shape).BroadcastsInDim ⟨2, ![A, B]⟩ (![0, 1] : Fin 2 → Fin 2))
    (cc : (⟨1, ![A]⟩ : Shape).ShapeCasts ⟨2, ![A, 1]⟩)
    (s : FVec Ideal ⟨2, ![A, B]⟩ .f32) (c : FVec Ideal ⟨1, ![A]⟩ .f32) :
    Host.divf s (broadcastInDim ⟨2, ![A, B]⟩ ![0, 1] c2 (broadcastInDim ⟨2, ![A, 1]⟩ ![0] c1
        (maximumf c (broadcastInDim ⟨1, ![A]⟩ ![] o1 (constant (F := Ideal) ⟨0, ![]⟩ .f32 0x3F800000#32)))))
      = meanRows s (shapeCast ⟨2, ![A, 1]⟩ c cc) := by
  funext i
  obtain ⟨g, k, rfl⟩ : ∃ (g : Fin A) (k : Fin B), i = ix2 g k := ⟨i 0, i 1, eq_ix2 i⟩
  rw [meanRows_apply, Cert.LibKeepdims.shapeCast_a_a1_apply]
  show Ideal.div (s (ix2 g k)) _ = _
  rw [Cert.LibJoinedRows.bcast_col_rows_apply, Cert.LibJoinedRows.bcast_vec_col_apply, maximumf_apply,
    Cert.LibJoinedRows.bcast_scalar_apply, constant_apply]

/-! ## The head -/

/-- Mean rows times a weight column, plus a one-entry bias, through the logistic function. -/
def logisticHead (s : FVec Ideal ⟨2, ![A, K]⟩ .f32) (c : FVec Ideal ⟨2, ![A, 1]⟩ .f32) (w : FVec Ideal ⟨2, ![K, B]⟩ .f32)
    (b : FVec Ideal ⟨2, ![1, B]⟩ .f32) : FVec Ideal ⟨2, ![A, B]⟩ .f32 :=
  fun i => Ideal.logistic (addRow (matProd (meanRows s c) w) b i)

theorem logisticHead_apply (s : FVec Ideal ⟨2, ![A, K]⟩ .f32) (c : FVec Ideal ⟨2, ![A, 1]⟩ .f32) (w : FVec Ideal ⟨2, ![K, B]⟩ .f32)
    (b : FVec Ideal ⟨2, ![1, B]⟩ .f32) (g : Fin A) (u : Fin B) :
    logisticHead s c w b (ix2 g u)
      = Ideal.logistic ((∑ k : Fin K, meanRows s c (ix2 g k) * w (ix2 k u)) + b (ix2 (0 : Fin 1) u)) := rfl

/-- The logistic function written out on the host: one over one plus the exponential of the negation. -/
theorem host_logistic {t : Shape} (o : (⟨0, ![]⟩ : Shape).BroadcastsInDim t (![] : Fin 0 → Fin t.rank)) (z : FVec Ideal t .f32) :
    Host.divf (broadcastInDim t ![] o (constant (F := Ideal) ⟨0, ![]⟩ .f32 0x3F800000#32))
        (addf (broadcastInDim t ![] o (constant (F := Ideal) ⟨0, ![]⟩ .f32 0x3F800000#32)) (Host.exp (Host.negf z)))
      = fun i => Ideal.logistic (z i) := by
  funext i
  show Ideal.div _ (_ + Ideal.exp (-(z i))) = _
  rw [Cert.LibJoinedRows.bcast_scalar_apply, constant_apply, ofBits_one]
  rfl

/-- The host spelling of the head. -/
theorem host_logisticHead {D : DotDims ⟨2, ![A, K]⟩ ⟨2, ![K, B]⟩ ⟨2, ![A, B]⟩} (hD : Cert.LibPlainDot.Plain D)
    (prec : Option ContractPrecision)
    (o1 : (⟨0, ![]⟩ : Shape).BroadcastsInDim ⟨1, ![A]⟩ (![] : Fin 0 → Fin 1))
    (c1 : (⟨1, ![A]⟩ : Shape).BroadcastsInDim ⟨2, ![A, 1]⟩ (![0] : Fin 1 → Fin 2))
    (c2 : (⟨2, ![A, 1]⟩ : Shape).BroadcastsInDim ⟨2, ![A, K]⟩ (![0, 1] : Fin 2 → Fin 2))
    (cc : (⟨1, ![A]⟩ : Shape).ShapeCasts ⟨2, ![A, 1]⟩)
    (b1 : (⟨1, ![B]⟩ : Shape).BroadcastsInDim ⟨2, ![1, B]⟩ (![1] : Fin 1 → Fin 2))
    (b2 : (⟨2, ![1, B]⟩ : Shape).BroadcastsInDim ⟨2, ![A, B]⟩ (![0, 1] : Fin 2 → Fin 2))
    (bc : (⟨1, ![B]⟩ : Shape).ShapeCasts ⟨2, ![1, B]⟩)
    (o : (⟨0, ![]⟩ : Shape).BroadcastsInDim ⟨2, ![A, B]⟩ (![] : Fin 0 → Fin 2))
    (s : FVec Ideal ⟨2, ![A, K]⟩ .f32) (c : FVec Ideal ⟨1, ![A]⟩ .f32) (w : FVec Ideal ⟨2, ![K, B]⟩ .f32) (b : FVec Ideal ⟨1, ![B]⟩ .f32) :
    Host.divf (broadcastInDim ⟨2, ![A, B]⟩ ![] o (constant (F := Ideal) ⟨0, ![]⟩ .f32 0x3F800000#32))
        (addf (broadcastInDim ⟨2, ![A, B]⟩ ![] o (constant (F := Ideal) ⟨0, ![]⟩ .f32 0x3F800000#32))
          (Host.exp (Host.negf (addf
            (Host.dotGeneral D prec
              (Host.divf s (broadcastInDim ⟨2, ![A, K]⟩ ![0, 1] c2 (broadcastInDim ⟨2, ![A, 1]⟩ ![0] c1
                (maximumf c (broadcastInDim ⟨1, ![A]⟩ ![] o1 (constant (F := Ideal) ⟨0, ![]⟩ .f32 0x3F800000#32))))))
              w)
            (broadcastInDim ⟨2, ![A, B]⟩ ![0, 1] b2 (broadcastInDim ⟨2, ![1, B]⟩ ![1] b1 b))))))
      = logisticHead s (shapeCast ⟨2, ![A, 1]⟩ c cc) w (shapeCast ⟨2, ![1, B]⟩ b bc) := by
  rw [host_logistic o, host_meanRows o1 c1 c2 cc, dotGeneral_eq_matProd hD, addf_bcast_row_eq_addRow b1 b2 bc]
  rfl

end Cert.LibGcnLayer

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Region1.lean ====
/-
  The first layer's epilogue, as one array.

  The region adds, for a 5000-row block, the aggregated messages, the dense transform scaled row by row by the
  self-loop weight, and the bias row, and clamps the sum at zero; twenty blocks tile the 100000 rows.  So the array it
  leaves is the layer's epilogue of the four arrays it found, entry by entry, whatever they hold.
-/
import proofs.«158380_j24988119728496_1_alg».proof.Proof.Gen.KernelIdeal.Frame
import proofs.«158380_j24988119728496_1_alg».proof.Proof.LibGcnLayer
import proofs.«158380_j24988119728496_1_alg».proof.Proof.LibRowLayout
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGcnLayer

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the epilogue of the four arrays it found. -/
def layerOut (c : Dev nD) : FVec Ideal S100000x256 .f32 :=
  epilogue (A := 100000) (B := 256) (V c main_v41) (V c main_v28) (V c main_v27) (V c main_v42)

/-- One entry of a block's result. -/
theorem block_apply (x0 x1 : FVec Ideal S5000x256 .f32) (x2 : FVec Ideal S5000x1 .f32) (x3 : FVec Ideal S1x256 .f32)
    (p : Fin 5000) (q : Fin 256) :
    k1_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k1_pay1
  simp only [maximumf_apply, addf_apply, mulf_apply, broadcast_apply, shapeCast_self,
    Cert.LibKeepdims.broadcastTo_a1_ab_apply, Cert.LibRowLayout.broadcastTo_1b_ab_apply] <;> rfl

/-- A block whose rows are rows r.. of the three row-indexed arrays and whose bias row is the whole bias row has
    the epilogue's entry (r, q) at (p, q). -/
theorem block_entry (agg h : FVec Ideal S100000x256 .f32) (n : FVec Ideal S100000x1 .f32) (b : FVec Ideal S1x256 .f32)
    (x0 x1 : FVec Ideal S5000x256 .f32) (x2 : FVec Ideal S5000x1 .f32) (x3 : FVec Ideal S1x256 .f32)
    (r : Fin 100000) (p : Fin 5000) (q : Fin 256)
    (h0 : x0 (ix2 p q) = agg (ix2 r q)) (h1 : x1 (ix2 p q) = h (ix2 r q))
    (h2 : x2 (ix2 p (0 : Fin 1)) = n (ix2 r (0 : Fin 1))) (h3 : x3 (ix2 (0 : Fin 1) q) = b (ix2 (0 : Fin 1) q)) :
    k1_pay1 (F := Ideal) x0 x1 x2 x3 (ix2 p q) = epilogue (A := 100000) (B := 256) agg h n b (ix2 r q) := by
  rw [block_apply, epilogue_apply, h0, h1, h2, h3]

/-- The block indices over the grid: the three row-indexed operands and the result move down the rows together, the
    bias row stays. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 19 :=
  (by decide +kernel : ∀ t : Fin grid1.N, _)

/-- Every block of rows is some grid point's. -/
theorem index_onto : ∀ (q0 : Fin 20), ∃ t : Fin cfg1.N, win1_4.index t = ![q0.val, 0] :=
  (by decide +kernel : ∀ (q0 : Fin 20), ∃ t : Fin grid1.N, win1_4.index t = ![q0.val, 0])

/-- What grid point t writes back is block t of the epilogue. -/
theorem flushed_eq (c : Dev nD) (t : Fin cfg1.N) :
    (dat1 V c).flushed 4 t = ((cfg1.win 4).blk t).view.read (Elt Ideal) (layerOut V c) := by
  show (cfg1.win 4).cut (grid1.coords t) ((dat1 V c).after 4 t) = _
  rw [after1_4]
  unfold out1_4
  rw [View.canon_unit_zero origin]
  simp only [View.ld_unit_zero (S := S5000x256) origin, View.ld_unit_zero (S := S5000x1) origin, View.ld_unit_zero (S := S1x256) origin]
  obtain ⟨e0, e1, e2, e3, e4, e5, e6, e7, e8, e9⟩ := index_facts t
  funext j
  obtain ⟨p, q, rfl⟩ : ∃ (p : Fin 5000) (q : Fin 256), j = ix2 p q := ⟨j 0, j 1, eq_ix2 j⟩
  have hp : p.val < 5000 := p.isLt
  have hr : win1_4.index t (0 : Fin 2) * 5000 + p.val < 100000 := by omega
  rw [View.read_apply]
  have e_out : ((cfg1.win 4).blk t).view.emb (ix2 p q) = ix2 (⟨win1_4.index t (0 : Fin 2) * 5000 + p.val, hr⟩ : Fin 100000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 256 + 1 * q.val = q.val; omega
  rw [e_out]
  unfold layerOut
  refine block_entry _ _ _ _ _ _ _ _ ⟨win1_4.index t (0 : Fin 2) * 5000 + p.val, hr⟩ p q ?_ ?_ ?_ ?_
  · show V c main_v41 (((cfg1.win 0).blk t).view.emb (ix2 p q)) = V c main_v41 (ix2 (⟨win1_4.index t (0 : Fin 2) * 5000 + p.val, hr⟩ : Fin 100000) q)
    refine congrArg _ ?_
    funext a; apply Fin.ext
    match a with
    | ⟨0, _⟩ => show win1_0.index t (0 : Fin 2) * 5000 + 1 * p.val = win1_4.index t (0 : Fin 2) * 5000 + p.val; omega
    | ⟨1, _⟩ => show win1_0.index t (1 : Fin 2) * 256 + 1 * q.val = q.val; omega
  · show V c main_v28 (((cfg1.win 1).blk t).view.emb (ix2 p q)) = V c main_v28 (ix2 (⟨win1_4.index t (0 : Fin 2) * 5000 + p.val, hr⟩ : Fin 100000) q)
    refine congrArg _ ?_
    funext a; apply Fin.ext
    match a with
    | ⟨0, _⟩ => show win1_1.index t (0 : Fin 2) * 5000 + 1 * p.val = win1_4.index t (0 : Fin 2) * 5000 + p.val; omega
    | ⟨1, _⟩ => show win1_1.index t (1 : Fin 2) * 256 + 1 * q.val = q.val; omega
  · show V c main_v27 (((cfg1.win 2).blk t).view.emb (ix2 p (0 : Fin 1))) = V c main_v27 (ix2 (⟨win1_4.index t (0 : Fin 2) * 5000 + p.val, hr⟩ : Fin 100000) (0 : Fin 1))
    refine congrArg _ ?_
    funext a; apply Fin.ext
    match a with
    | ⟨0, _⟩ => show win1_2.index t (0 : Fin 2) * 5000 + 1 * p.val = win1_4.index t (0 : Fin 2) * 5000 + p.val; omega
    | ⟨1, _⟩ => show win1_2.index t (1 : Fin 2) * 1 + 1 * 0 = 0; omega
  · show V c main_v42 (((cfg1.win 3).blk t).view.emb (ix2 (0 : Fin 1) q)) = V c main_v42 (ix2 (0 : Fin 1) q)
    refine congrArg _ ?_
    funext a; apply Fin.ext
    match a with
    | ⟨0, _⟩ => show win1_3.index t (0 : Fin 2) * 1 + 1 * 0 = 0; omega
    | ⟨1, _⟩ => show win1_3.index t (1 : Fin 2) * 256 + 1 * q.val = q.val; omega

/-- An index of the result array is in point t's block iff its coordinates are in the block's ranges. -/
theorem mem_blk (t : Fin cfg1.N) (i : S100000x256.Idx) :
    i ∈ ((cfg1.win 4).blk t).view.set ↔ ∀ a : Fin 2, win1_4.index t a * S5000x256.size a ≤ (i a).val ∧ (i a).val < win1_4.index t a * S5000x256.size a + S5000x256.size a := by
  show i ∈ ((View.whole main_v43).slice (win1_4.rect t)).set ↔ _
  rw [View.set_slice_whole, Rect.mem_set_unit]
  exact Iff.rfl

/-- The twenty blocks cover the array: row r lies in block r / 5000. -/
theorem cover (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 256 ≤ (i 1).val ∧ (i 1).val < win1_4.index t (1 : Fin 2) * 256 + 256; omega

/-- The array the region leaves is the epilogue of the arrays it found. -/
theorem final (c : Dev nD) : (dat1 V c).arrAt 4 cfg1.N = layerOut V c :=
  (dat1 V c).arrAt_eq_of_cover 4 (layerOut V c) (fun t _ => flushed_eq V c t) (cover)

end Cert.KernelIdeal.Region1

end
-- ==== Proof.Region2.lean ====
/-
  The second dense transform, as one array.

  The third kernel region multiplies a 5000-row block of its left operand by the whole right operand and writes the
  5000-row block of the product; twenty such blocks tile the 100000 rows.  Entry (r, q) of the array the region
  leaves is therefore the matrix product's entry: the sum over k of left(r, k) * right(k, q), whatever the region
  found in its two operand arrays.
-/
import proofs.«158380_j24988119728496_1_alg».proof.Proof.Gen.KernelIdeal.Frame
import proofs.«158380_j24988119728496_1_alg».proof.Proof.LibTileOps
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibTileOps

variable (V : (c : Dev nD) → (b : Ref sig .tc) → Buf (Elt Ideal) ((c : Thread nD τ).loc b))

theorem origin : (![0, 0] : Fin 2 → Nat) = fun _ => 0 := funext fun a => by fin_cases a <;> rfl

/-- The block product's dimension numbers are those of a plain matrix product. -/
theorem plain : Cert.LibPlainDot.Plain dot_S5000x256_S256x256_S5000x256_1_0_0_1_n_n := ⟨rfl, rfl, rfl, rfl, rfl, rfl⟩

/-- The array the region leaves: the product of the two operand arrays it found. -/
def product (c : Dev nD) : FVec Ideal S100000x256 .f32 :=
  matProd (A := 100000) (K := 256) (B := 256) (V c main_v43) (V c main_arg5)

/-- One entry of a block's product is the sum over the contracted axis. -/
theorem block_apply (x0 : FVec Ideal S5000x256 .f32) (x1 : FVec Ideal S256x256 .f32) (p : Fin 5000) (q : Fin 256) :
    k2_pay1 (F := Ideal) x0 x1 (ix2 p q) = ∑ k : Fin 256, x0 (ix2 p k) * x1 (ix2 k q) := by
  unfold k2_pay1
  simp only [shapeCast_self]
  exact plain.matmul_zero_apply none x0 x1 p q

/-- A block whose rows are rows r.. of the left array and whose right operand is the whole right array has the
    product's entry (r, q) at (p, q). -/
theorem block_entry (A : FVec Ideal S100000x256 .f32) (B : FVec Ideal S256x256 .f32)
    (x0 : FVec Ideal S5000x256 .f32) (x1 : FVec Ideal S256x256 .f32) (r : Fin 100000) (p : Fin 5000) (q : Fin 256)
    (h0 : ∀ k : Fin 256, x0 (ix2 p k) = A (ix2 r k)) (h1 : ∀ k : Fin 256, x1 (ix2 k q) = B (ix2 k q)) :
    k2_pay1 (F := Ideal) x0 x1 (ix2 p q) = matProd (A := 100000) (K := 256) (B := 256) A B (ix2 r q) := by
  rw [block_apply, matProd_apply]
  exact Finset.sum_congr rfl fun k _ => by rw [h0, h1]

/-- The block indices over the grid: the left operand and the result move down the rows together, the right operand
    stays. -/
theorem index_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every block of rows is some grid point's. -/
theorem index_onto : ∀ (q0 : Fin 20), ∃ t : Fin cfg2.N, win2_2.index t = ![q0.val, 0] :=
  (by decide +kernel : ∀ (q0 : Fin 20), ∃ t : Fin grid2.N, win2_2.index t = ![q0.val, 0])

/-- What grid point t writes back is block t of the product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero origin]
  simp only [View.ld_unit_zero (S := S5000x256) origin, View.ld_unit_zero (S := S256x256) origin]
  obtain ⟨e0, e1, e2, e3, e4, e5⟩ := index_facts t
  funext j
  obtain ⟨p, q, rfl⟩ : ∃ (p : Fin 5000) (q : Fin 256), j = ix2 p q := ⟨j 0, j 1, eq_ix2 j⟩
  have hp : p.val < 5000 := p.isLt
  have hr : win2_2.index t (0 : Fin 2) * 5000 + p.val < 100000 := by omega
  rw [View.read_apply]
  have e_out : ((cfg2.win 2).blk t).view.emb (ix2 p q) = ix2 (⟨win2_2.index t (0 : Fin 2) * 5000 + p.val, hr⟩ : Fin 100000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 256 + 1 * q.val = q.val; omega
  rw [e_out]
  unfold product
  refine block_entry _ _ _ _ ⟨win2_2.index t (0 : Fin 2) * 5000 + p.val, hr⟩ p q (fun k => ?_) (fun k => ?_)
  · show V c main_v43 (((cfg2.win 0).blk t).view.emb (ix2 p k)) = V c main_v43 (ix2 (⟨win2_2.index t (0 : Fin 2) * 5000 + p.val, hr⟩ : Fin 100000) k)
    refine congrArg _ ?_
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 256 + 1 * k.val = k.val; omega
  · show V c main_arg5 (((cfg2.win 1).blk t).view.emb (ix2 k q)) = V c main_arg5 (ix2 k q)
    refine congrArg _ ?_
    funext a; apply Fin.ext
    match a with
    | ⟨0, _⟩ => show win2_1.index t (0 : Fin 2) * 256 + 1 * k.val = k.val; omega
    | ⟨1, _⟩ => show win2_1.index t (1 : Fin 2) * 256 + 1 * q.val = q.val; omega

/-- An index of the result array is in point t's block iff its coordinates are in the block's ranges. -/
theorem mem_blk (t : Fin cfg2.N) (i : S100000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v44).slice (win2_2.rect t)).set ↔ _
  rw [View.set_slice_whole, Rect.mem_set_unit]
  exact Iff.rfl

/-- The twenty blocks cover the array: row r lies in block r / 5000. -/
theorem cover (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- The array the region leaves is the product of the operand arrays it found. -/
theorem final (c : Dev nD) : (dat2 V c).arrAt 2 cfg2.N = product V c :=
  (dat2 V c).arrAt_eq_of_cover 2 (product V c) (fun t _ => flushed_eq V c t) (cover)

end Cert.KernelIdeal.Region2

end
-- ==== Proof.Region3.lean ====
/-
  The second layer's epilogue, as one array.

  The region adds, for a 5000-row block, the aggregated messages, the dense transform scaled row by row by the
  self-loop weight, and the bias row, and clamps the sum at zero; twenty blocks tile the 100000 rows.  So the array it
  leaves is the layer's epilogue of the four arrays it found, entry by entry, whatever they hold.
-/
import proofs.«158380_j24988119728496_1_alg».proof.Proof.Gen.KernelIdeal.Frame
import proofs.«158380_j24988119728496_1_alg».proof.Proof.LibGcnLayer
import proofs.«158380_j24988119728496_1_alg».proof.Proof.LibRowLayout
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGcnLayer

variable (V : (c : Dev nD) → (b : Ref sig .tc) → Buf (Elt Ideal) ((c : Thread nD τ).loc b))

theorem origin : (![0, 0] : Fin 2 → Nat) = fun _ => 0 := funext fun a => by fin_cases a <;> rfl

/-- The array the region leaves: the epilogue of the four arrays it found. -/
def layerOut (c : Dev nD) : FVec Ideal S100000x256 .f32 :=
  epilogue (A := 100000) (B := 256) (V c main_v57) (V c main_v44) (V c main_v27) (V c main_v58)

/-- One entry of a block's result. -/
theorem block_apply (x0 x1 : FVec Ideal S5000x256 .f32) (x2 : FVec Ideal S5000x1 .f32) (x3 : FVec Ideal S1x256 .f32)
    (p : Fin 5000) (q : Fin 256) :
    k3_pay1 (F := Ideal) x0 x1 x2 x3 (ix2 p q)
      = max ((x0 (ix2 p q) + x1 (ix2 p q) * x2 (ix2 p (0 : Fin 1))) + x3 (ix2 (0 : Fin 1) q)) (Ideal.ofBits .f32 0x00000000#32) := by
  unfold k3_pay1
  simp only [maximumf_apply, addf_apply, mulf_apply, broadcast_apply, shapeCast_self,
    Cert.LibKeepdims.broadcastTo_a1_ab_apply, Cert.LibRowLayout.broadcastTo_1b_ab_apply] <;> rfl

/-- A block whose rows are rows r.. of the three row-indexed arrays and whose bias row is the whole bias row has
    the epilogue's entry (r, q) at (p, q). -/
theorem block_entry (agg h : FVec Ideal S100000x256 .f32) (n : FVec Ideal S100000x1 .f32) (b : FVec Ideal S1x256 .f32)
    (x0 x1 : FVec Ideal S5000x256 .f32) (x2 : FVec Ideal S5000x1 .f32) (x3 : FVec Ideal S1x256 .f32)
    (r : Fin 100000) (p : Fin 5000) (q : Fin 256)
    (h0 : x0 (ix2 p q) = agg (ix2 r q)) (h1 : x1 (ix2 p q) = h (ix2 r q))
    (h2 : x2 (ix2 p (0 : Fin 1)) = n (ix2 r (0 : Fin 1))) (h3 : x3 (ix2 (0 : Fin 1) q) = b (ix2 (0 : Fin 1) q)) :
    k3_pay1 (F := Ideal) x0 x1 x2 x3 (ix2 p q) = epilogue (A := 100000) (B := 256) agg h n b (ix2 r q) := by
  rw [block_apply, epilogue_apply, h0, h1, h2, h3]

/-- The block indices over the grid: the three row-indexed operands and the result move down the rows together, the
    bias row stays. -/
theorem index_facts : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 19 :=
  (by decide +kernel : ∀ t : Fin grid3.N, _)

/-- Every block of rows is some grid point's. -/
theorem index_onto : ∀ (q0 : Fin 20), ∃ t : Fin cfg3.N, win3_4.index t = ![q0.val, 0] :=
  (by decide +kernel : ∀ (q0 : Fin 20), ∃ t : Fin grid3.N, win3_4.index t = ![q0.val, 0])

/-- What grid point t writes back is block t of the epilogue. -/
theorem flushed_eq (c : Dev nD) (t : Fin cfg3.N) :
    (dat3 V c).flushed 4 t = ((cfg3.win 4).blk t).view.read (Elt Ideal) (layerOut V c) := by
  show (cfg3.win 4).cut (grid3.coords t) ((dat3 V c).after 4 t) = _
  rw [after3_4]
  unfold out3_4
  rw [View.canon_unit_zero origin]
  simp only [View.ld_unit_zero (S := S5000x256) origin, View.ld_unit_zero (S := S5000x1) origin, View.ld_unit_zero (S := S1x256) origin]
  obtain ⟨e0, e1, e2, e3, e4, e5, e6, e7, e8, e9⟩ := index_facts t
  funext j
  obtain ⟨p, q, rfl⟩ : ∃ (p : Fin 5000) (q : Fin 256), j = ix2 p q := ⟨j 0, j 1, eq_ix2 j⟩
  have hp : p.val < 5000 := p.isLt
  have hr : win3_4.index t (0 : Fin 2) * 5000 + p.val < 100000 := by omega
  rw [View.read_apply]
  have e_out : ((cfg3.win 4).blk t).view.emb (ix2 p q) = ix2 (⟨win3_4.index t (0 : Fin 2) * 5000 + p.val, hr⟩ : Fin 100000) q := by
    funext a; apply Fin.ext
    match a with
    | ⟨0, _⟩ => show win3_4.index t (0 : Fin 2) * 5000 + 1 * p.val = win3_4.index t (0 : Fin 2) * 5000 + p.val; omega
    | ⟨1, _⟩ => show win3_4.index t (1 : Fin 2) * 256 + 1 * q.val = q.val; omega
  rw [e_out]
  unfold layerOut
  refine block_entry _ _ _ _ _ _ _ _ ⟨win3_4.index t (0 : Fin 2) * 5000 + p.val, hr⟩ p q ?_ ?_ ?_ ?_
  · show V c main_v57 (((cfg3.win 0).blk t).view.emb (ix2 p q)) = V c main_v57 (ix2 (⟨win3_4.index t (0 : Fin 2) * 5000 + p.val, hr⟩ : Fin 100000) q)
    refine congrArg _ ?_
    funext a; apply Fin.ext
    match a with
    | ⟨0, _⟩ => show win3_0.index t (0 : Fin 2) * 5000 + 1 * p.val = win3_4.index t (0 : Fin 2) * 5000 + p.val; omega
    | ⟨1, _⟩ => show win3_0.index t (1 : Fin 2) * 256 + 1 * q.val = q.val; omega
  · show V c main_v44 (((cfg3.win 1).blk t).view.emb (ix2 p q)) = V c main_v44 (ix2 (⟨win3_4.index t (0 : Fin 2) * 5000 + p.val, hr⟩ : Fin 100000) q)
    refine congrArg _ ?_
    funext a; apply Fin.ext
    match a with
    | ⟨0, _⟩ => show win3_1.index t (0 : Fin 2) * 5000 + 1 * p.val = win3_4.index t (0 : Fin 2) * 5000 + p.val; omega
    | ⟨1, _⟩ => show win3_1.index t (1 : Fin 2) * 256 + 1 * q.val = q.val; omega
  · show V c main_v27 (((cfg3.win 2).blk t).view.emb (ix2 p (0 : Fin 1))) = V c main_v27 (ix2 (⟨win3_4.index t (0 : Fin 2) * 5000 + p.val, hr⟩ : Fin 100000) (0 : Fin 1))
    refine congrArg _ ?_
    funext a; apply Fin.ext
    match a with
    | ⟨0, _⟩ => show win3_2.index t (0 : Fin 2) * 5000 + 1 * p.val = win3_4.index t (0 : Fin 2) * 5000 + p.val; omega
    | ⟨1, _⟩ => show win3_2.index t (1 : Fin 2) * 1 + 1 * 0 = 0; omega
  · show V c main_v58 (((cfg3.win 3).blk t).view.emb (ix2 (0 : Fin 1) q)) = V c main_v58 (ix2 (0 : Fin 1) q)
    refine congrArg _ ?_
    funext a; apply Fin.ext
    match a with
    | ⟨0, _⟩ => show win3_3.index t (0 : Fin 2) * 1 + 1 * 0 = 0; omega
    | ⟨1, _⟩ => show win3_3.index t (1 : Fin 2) * 256 + 1 * q.val = q.val; omega

/-- An index of the result array is in point t's block iff its coordinates are in the block's ranges. -/
theorem mem_blk (t : Fin cfg3.N) (i : S100000x256.Idx) :
    i ∈ ((cfg3.win 4).blk t).view.set ↔ ∀ a : Fin 2, win3_4.index t a * S5000x256.size a ≤ (i a).val ∧ (i a).val < win3_4.index t a * S5000x256.size a + S5000x256.size a := by
  show i ∈ ((View.whole main_v59).slice (win3_4.rect t)).set ↔ _
  rw [View.set_slice_whole, Rect.mem_set_unit]
  exact Iff.rfl

/-- The twenty blocks cover the array: row r lies in block r / 5000. -/
theorem cover (i : S100000x256.Idx) :
    ∃ t : Fin cfg3.N, (cfg3.win 4).flush t = true ∧ i ∈ ((cfg3.win 4).blk t).view.set := by
  have hi0 : (i 0).val < 100000 := (i 0).isLt
  have hi1 : (i 1).val < 256 := (i 1).isLt
  obtain ⟨t, ht⟩ := index_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 256 ≤ (i 1).val ∧ (i 1).val < win3_4.index t (1 : Fin 2) * 256 + 256; omega

/-- The array the region leaves is the epilogue of the arrays it found. -/
theorem final (c : Dev nD) : (dat3 V c).arrAt 4 cfg3.N = layerOut V c :=
  (dat3 V c).arrAt_eq_of_cover 4 (layerOut V c) (fun t _ => flushed_eq V c t) (cover)

end Cert.KernelIdeal.Region3

end
-- ==== Proof.Region4.lean ====
/-
  The head, as one array.

  The last region, in one step over whole arrays: it divides each graph's row of sums by the graph's node count
  clamped below at one, multiplies the mean rows by the weight column, adds the bias and applies the logistic
  function.  So the array it leaves is the mean-pooled logistic head of the four arrays it found, entry by entry.
-/
import proofs.«158380_j24988119728496_1_alg».proof.Proof.Gen.KernelIdeal.Frame
import proofs.«158380_j24988119728496_1_alg».proof.Proof.LibGcnLayer
import proofs.«158380_j24988119728496_1_alg».proof.Proof.LibRowLayout
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LibGcnLayer Cert.LibTileOps

variable (V : (c : Dev nD) → (b : Ref sig .tc) → Buf (Elt Ideal) ((c : Thread nD τ).loc b))

theorem origin : (![0, 0] : Fin 2 → Nat) = fun _ => 0 := funext fun a => by fin_cases a <;> rfl

/-- The head's product has the dimension numbers of a plain matrix product. -/
theorem plain : Cert.LibPlainDot.Plain dot_S2048x256_S256x1_S2048x1_1_0_0_1_n_n := ⟨rfl, rfl, rfl, rfl, rfl, rfl⟩

/-- The array the region leaves: the head of the four arrays it found. -/
def headOut (c : Dev nD) : FVec Ideal S2048x1 .f32 :=
  logisticHead (A := 2048) (K := 256) (B := 1) (V c main_v62) (V c main_v67) (V c main_arg7) (V c main_v68)

/-- One entry of the body's result. -/
theorem block_apply (cnt : FVec Ideal S2048x1 .f32) (sums : FVec Ideal S2048x256 .f32) (wf : FVec Ideal S256x1 .f32)
    (bf : FVec Ideal S1x1 .f32) (g : Fin 2048) (u : Fin 1) :
    k4_pay1 (F := Ideal) cnt sums wf bf (ix2 g u)
      = Ideal.logistic ((∑ k : Fin 256,
          Ideal.div (sums (ix2 g k)) (max (cnt (ix2 g (0 : Fin 1))) (Ideal.ofBits .f32 0x3F800000#32)) * wf (ix2 k u))
          + bf (ix2 (0 : Fin 1) u)) := by
  unfold k4_pay1
  simp only [shapeCast_self]
  show Ideal.logistic (FloatOps.matmul dot_S2048x256_S256x1_S2048x1_1_0_0_1_n_n none _ wf (constant S2048x1 .f32 0x00000000#32) (ix2 g u)
      + broadcastTo S2048x1 bf _ (ix2 g u)) = _
  rw [plain.matmul_zero_apply none _ wf g u, Cert.LibRowLayout.broadcastTo_1b_ab_apply]
  refine congrArg Ideal.logistic (congrArg (· + bf (ix2 (0 : Fin 1) u)) (Finset.sum_congr rfl fun k _ => ?_))
  rw [divf_apply, Cert.LibKeepdims.broadcastTo_a1_ab_apply, maximumf_apply, broadcast_apply]
  rfl

/-- Blocks that are the whole arrays give the head's entry. -/
theorem block_entry (S : FVec Ideal S2048x256 .f32) (C : FVec Ideal S2048x1 .f32) (W : FVec Ideal S256x1 .f32) (Bf : FVec Ideal S1x1 .f32)
    (cnt : FVec Ideal S2048x1 .f32) (sums : FVec Ideal S2048x256 .f32) (wf : FVec Ideal S256x1 .f32) (bf : FVec Ideal S1x1 .f32)
    (g : Fin 2048) (u : Fin 1)
    (h0 : ∀ k : Fin 256, sums (ix2 g k) = S (ix2 g k)) (h1 : cnt (ix2 g (0 : Fin 1)) = C (ix2 g (0 : Fin 1)))
    (h2 : ∀ k : Fin 256, wf (ix2 k u) = W (ix2 k u)) (h3 : bf (ix2 (0 : Fin 1) u) = Bf (ix2 (0 : Fin 1) u)) :
    k4_pay1 (F := Ideal) cnt sums wf bf (ix2 g u) = logisticHead (A := 2048) (K := 256) (B := 1) S C W Bf (ix2 g u) := by
  rw [block_apply, logisticHead_apply, h1, h3]
  refine congrArg Ideal.logistic (congrArg (· + Bf (ix2 (0 : Fin 1) u)) (Finset.sum_congr rfl fun k _ => ?_))
  rw [meanRows_apply, h0, h2]

/-- Every window's block index is zero at the one grid point. -/
theorem index_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem index_onto : ∃ t : Fin cfg4.N, win4_4.index t = ![0, 0] :=
  (by decide +kernel : ∃ t : Fin grid4.N, win4_4.index t = ![0, 0])

/-- What the grid point writes back is the head, read through the whole-array block. -/
theorem flushed_eq (c : Dev nD) (t : Fin cfg4.N) :
    (dat4 V c).flushed 4 t = ((cfg4.win 4).blk t).view.read (Elt Ideal) (headOut V c) := by
  show (cfg4.win 4).cut (grid4.coords t) ((dat4 V c).after 4 t) = _
  rw [after4_4]
  unfold out4_4
  rw [View.canon_unit_zero origin]
  simp only [View.ld_unit_zero (S := S2048x256) origin, View.ld_unit_zero (S := S2048x1) origin,
    View.ld_unit_zero (S := S256x1) origin, View.ld_unit_zero (S := S1x1) origin]
  obtain ⟨e0, e1, e2, e3, e4, e5, e6, e7, e8, e9⟩ := index_facts t
  funext j
  obtain ⟨g, u, rfl⟩ : ∃ (g : Fin 2048) (u : Fin 1), j = ix2 g u := ⟨j 0, j 1, eq_ix2 j⟩
  rw [View.read_apply]
  have e_out : ((cfg4.win 4).blk t).view.emb (ix2 g u) = ix2 g u := by
    funext a; apply Fin.ext
    match a with
    | ⟨0, _⟩ => show win4_4.index t (0 : Fin 2) * 2048 + 1 * g.val = g.val; omega
    | ⟨1, _⟩ => show win4_4.index t (1 : Fin 2) * 1 + 1 * u.val = u.val; omega
  rw [e_out]
  unfold headOut
  refine block_entry _ _ _ _ _ _ _ _ g u (fun k => ?_) ?_ (fun k => ?_) ?_
  · show V c main_v62 (((cfg4.win 0).blk t).view.emb (ix2 g k)) = V c main_v62 (ix2 g k)
    refine congrArg _ ?_
    funext a; apply Fin.ext
    match a with
    | ⟨0, _⟩ => show win4_0.index t (0 : Fin 2) * 2048 + 1 * g.val = g.val; omega
    | ⟨1, _⟩ => show win4_0.index t (1 : Fin 2) * 256 + 1 * k.val = k.val; omega
  · show V c main_v67 (((cfg4.win 1).blk t).view.emb (ix2 g (0 : Fin 1))) = V c main_v67 (ix2 g (0 : Fin 1))
    refine congrArg _ ?_
    funext a; apply Fin.ext
    match a with
    | ⟨0, _⟩ => show win4_1.index t (0 : Fin 2) * 2048 + 1 * g.val = g.val; omega
    | ⟨1, _⟩ => show win4_1.index t (1 : Fin 2) * 1 + 1 * 0 = 0; omega
  · show V c main_arg7 (((cfg4.win 2).blk t).view.emb (ix2 k u)) = V c main_arg7 (ix2 k u)
    refine congrArg _ ?_
    funext a; apply Fin.ext
    match a with
    | ⟨0, _⟩ => show win4_2.index t (0 : Fin 2) * 256 + 1 * k.val = k.val; omega
    | ⟨1, _⟩ => show win4_2.index t (1 : Fin 2) * 1 + 1 * u.val = u.val; omega
  · show V c main_v68 (((cfg4.win 3).blk t).view.emb (ix2 (0 : Fin 1) u)) = V c main_v68 (ix2 (0 : Fin 1) u)
    refine congrArg _ ?_
    funext a; apply Fin.ext
    match a with
    | ⟨0, _⟩ => show win4_3.index t (0 : Fin 2) * 1 + 1 * 0 = 0; omega
    | ⟨1, _⟩ => show win4_3.index t (1 : Fin 2) * 1 + 1 * u.val = u.val; omega

/-- An index of the result array is in the point's block iff its coordinates are in the block's ranges. -/
theorem mem_blk (t : Fin cfg4.N) (i : S2048x1.Idx) :
    i ∈ ((cfg4.win 4).blk t).view.set ↔ ∀ a : Fin 2, win4_4.index t a * S2048x1.size a ≤ (i a).val ∧ (i a).val < win4_4.index t a * S2048x1.size a + S2048x1.size a := by
  show i ∈ ((View.whole main_v69).slice (win4_4.rect t)).set ↔ _
  rw [View.set_slice_whole, Rect.mem_set_unit]
  exact Iff.rfl

/-- The one block is the whole array. -/
theorem cover (i : S2048x1.Idx) :
    ∃ t : Fin cfg4.N, (cfg4.win 4).flush t = true ∧ i ∈ ((cfg4.win 4).blk t).view.set := by
  have hi0 : (i 0).val < 2048 := (i 0).isLt
  have hi1 : (i 1).val < 1 := (i 1).isLt
  obtain ⟨t, ht⟩ := index_onto
  have q0 : win4_4.index t (0 : Fin 2) = 0 := congrFun ht 0
  have q1 : win4_4.index t (1 : Fin 2) = 0 := congrFun ht 1
  refine ⟨t, flush4_4 t, ?_⟩
  rw [mem_blk]
  intro a
  match a with
  | ⟨0, _⟩ => show win4_4.index t (0 : Fin 2) * 2048 ≤ (i 0).val ∧ (i 0).val < win4_4.index t (0 : Fin 2) * 2048 + 2048; omega
  | ⟨1, _⟩ => show win4_4.index t (1 : Fin 2) * 1 ≤ (i 1).val ∧ (i 1).val < win4_4.index t (1 : Fin 2) * 1 + 1; omega

/-- The array the region leaves is the head of the arrays it found. -/
theorem final (c : Dev nD) : (dat4 V c).arrAt 4 cfg4.N = headOut V c :=
  (dat4 V c).arrAt_eq_of_cover 4 (headOut V c) (fun t _ => flushed_eq V c t) (cover)

end Cert.KernelIdeal.Region4

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.Model.lean ====
/-
  The network as one function of its nine argument arrays.

  Two graph-convolution layers (dense transform, normalised message aggregation over the edge list, self-loop term,
  bias, clamp at zero), a mean pool of the node rows over the graphs, and a logistic head on the pooled rows.
-/
import proofs.«158380_j24988119728496_1_alg».proof.Proof.Stages
import proofs.«158380_j24988119728496_1_alg».proof.Proof.LibGcnLayer

noncomputable section

namespace Cert.KernelIdeal.Model

open Cert.KernelIdeal Cert.KernelIdeal.Stages Idealize.ShloMosaic Cert.LibTileOps Cert.LibGcnLayer

variable (x : FArr S100000x128) (ei : IArr S2x300000) (batch : IArr S100000) (w1 : FArr S128x256) (b1 : FArr S256)
  (w2 : FArr S256x256) (b2 : FArr S256) (wf : FArr S256x1) (bf : FArr S1)

/-- An edge's normalisation and a node's self-loop weight, from the edge list. -/
def norm : FArr S300000 := edgeNorm (src ei) (dst ei) (invSqrtDeg (dst ei))
def self : FArr S100000x1 := selfWeight (invSqrtDeg (dst ei))

/-- The first layer. -/
def transform1 : FArr S100000x256 := matProd (A := 100000) (K := 128) (B := 256) x w1
def layer1 : FArr S100000x256 :=
  epilogue (A := 100000) (B := 256) (aggregate (transform1 x w1) (src ei) (dst ei) (norm ei)) (transform1 x w1) (self ei) (biasRow b1)

/-- The second layer. -/
def transform2 : FArr S100000x256 := matProd (A := 100000) (K := 256) (B := 256) (layer1 x ei w1 b1) w2
def layer2 : FArr S100000x256 :=
  epilogue (A := 100000) (B := 256) (aggregate (transform2 x ei w1 b1 w2) (src ei) (dst ei) (norm ei)) (transform2 x ei w1 b1 w2)
    (self ei) (biasRow b2)

/-- The pooled logistic head. -/
def output : FArr S2048x1 :=
  logisticHead (A := 2048) (K := 256) (B := 1) (graphSums (layer2 x ei w1 b1 w2 b2) batch) (countColumn batch) wf (biasCell bf)

end Cert.KernelIdeal.Model

end
-- ==== Proof.Network.lean ====
/-
  The kernel program's result as one function of its arguments.

  The buffer contents at the nine segment boundaries are a fold: a stretch of host operations rewrites the buffers it
  computes, a region rewrites its output array, and every other buffer is carried over unchanged.  Following each
  value a region or a stretch reads back through that fold gives the network stage by stage: the dense transform of
  the node features, the first layer's aggregated messages and epilogue, the second transform, its messages and
  epilogue, the per-graph sums and counts, and the logistic head of them.
-/
import proofs.«158380_j24988119728496_1_alg».proof.Proof.Gen.KernelIdeal.Frame
import proofs.«158380_j24988119728496_1_alg».proof.Proof.Stages
import proofs.«158380_j24988119728496_1_alg».proof.Proof.Stretches
import proofs.«158380_j24988119728496_1_alg».proof.Proof.Region0
import proofs.«158380_j24988119728496_1_alg».proof.Proof.Region1
import proofs.«158380_j24988119728496_1_alg».proof.Proof.Region2
import proofs.«158380_j24988119728496_1_alg».proof.Proof.Region3
import proofs.«158380_j24988119728496_1_alg».proof.Proof.Region4
import proofs.«158380_j24988119728496_1_alg».proof.Proof.LibKeeps
import proofs.«158380_j24988119728496_1_alg».proof.Proof.Model

set_option maxRecDepth 16384

noncomputable section

namespace Cert.KernelIdeal.Network

open Cert.KernelIdeal Cert.KernelIdeal.Gen Cert.KernelIdeal.Stages Cert.KernelIdeal.Stretches
open Idealize.ShloMosaic Idealize.ShloMosaic.TcCoe Idealize.SL.Sem Idealize.ShloMosaic.StableHlo
open Cert.LibTileOps Cert.LibGcnLayer

variable (m : (ℓ : Loc nD τ sig) → Buf (Elt Ideal) ℓ) (ρ : Dev nD → PrngReg) (c : Dev nD)

/-! ## The network, stage by stage, over the launch contents -/

/-- The edge list's rows, the normalisation, the self-loop weights. -/
def sources : IArr S300000 := src (m ((c : Thread nD τ).loc main_arg1))
def targets : IArr S300000 := dst (m ((c : Thread nD τ).loc main_arg1))
def normOf : FArr S300000 := edgeNorm (sources m c) (targets m c) (invSqrtDeg (targets m c))
def selfOf : FArr S100000x1 := selfWeight (invSqrtDeg (targets m c))

/-- The first dense transform, its messages, the first layer. -/
def transform1 : FArr S100000x256 :=
  matProd (A := 100000) (K := 128) (B := 256) (m ((c : Thread nD τ).loc main_arg0)) (m ((c : Thread nD τ).loc main_arg3))
def layer1 : FArr S100000x256 :=
  epilogue (A := 100000) (B := 256) (aggregate (transform1 m c) (sources m c) (targets m c) (normOf m c)) (transform1 m c)
    (selfOf m c) (biasRow (m ((c : Thread nD τ).loc main_arg4)))

/-- The second dense transform, its messages, the second layer. -/
def transform2 : FArr S100000x256 :=
  matProd (A := 100000) (K := 256) (B := 256) (layer1 m c) (m ((c : Thread nD τ).loc main_arg5))
def layer2 : FArr S100000x256 :=
  epilogue (A := 100000) (B := 256) (aggregate (transform2 m c) (sources m c) (targets m c) (normOf m c)) (transform2 m c)
    (selfOf m c) (biasRow (m ((c : Thread nD τ).loc main_arg6)))

/-- The pooled head. -/
def output : FArr S2048x1 :=
  logisticHead (A := 2048) (K := 256) (B := 1) (graphSums (layer2 m c) (m ((c : Thread nD τ).loc main_arg2)))
    (countColumn (m ((c : Thread nD τ).loc main_arg2))) (m ((c : Thread nD τ).loc main_arg7))
    (biasCell (m ((c : Thread nD τ).loc main_arg8)))

/-! ## After the first stretch -/

theorem at1_arg0 : W1 m ρ c (Proc.devRef .tc main_arg0) = m ((c : Thread nD τ).loc main_arg0) := by
  show after hostOps0 (W0 m ρ c) (Proc.devRef .tc main_arg0) = W0 m ρ c (Proc.devRef .tc main_arg0); keeps_host hostOps0
theorem at1_arg3 : W1 m ρ c (Proc.devRef .tc main_arg3) = m ((c : Thread nD τ).loc main_arg3) := by
  show after hostOps0 (W0 m ρ c) (Proc.devRef .tc main_arg3) = W0 m ρ c (Proc.devRef .tc main_arg3); keeps_host hostOps0
theorem at1_arg4 : W1 m ρ c (Proc.devRef .tc main_arg4) = m ((c : Thread nD τ).loc main_arg4) := by
  show after hostOps0 (W0 m ρ c) (Proc.devRef .tc main_arg4) = W0 m ρ c (Proc.devRef .tc main_arg4); keeps_host hostOps0
theorem at1_arg5 : W1 m ρ c (Proc.devRef .tc main_arg5) = m ((c : Thread nD τ).loc main_arg5) := by
  show after hostOps0 (W0 m ρ c) (Proc.devRef .tc main_arg5) = W0 m ρ c (Proc.devRef .tc main_arg5); keeps_host hostOps0
theorem at1_src : W1 m ρ c (Proc.devRef .tc main_v1) = sources m c := first_src (W0 m ρ c)
theorem at1_dst : W1 m ρ c (Proc.devRef .tc main_v3) = targets m c := first_dst (W0 m ρ c)
theorem at1_norm : W1 m ρ c (Proc.devRef .tc main_v25) = normOf m c := first_edgeNorm (W0 m ρ c)
theorem at1_self : W1 m ρ c (Proc.devRef .tc main_v27) = selfOf m c := first_selfWeight (W0 m ρ c)

/-! ## After the first transform -/

theorem at2_transform : W2 m ρ c (Proc.devRef .tc main_v28) = transform1 m c := by
  refine (W2_arr m ρ c 2).trans ((Region0.final (V1 m ρ) c).trans ?_)
  unfold Region0.product transform1
  rw [show V1 m ρ c main_arg0 = m ((c : Thread nD τ).loc main_arg0) from at1_arg0 m ρ c,
    show V1 m ρ c main_arg3 = m ((c : Thread nD τ).loc main_arg3) from at1_arg3 m ρ c]
theorem at2_src : W2 m ρ c (Proc.devRef .tc main_v1) = sources m c := (W2_of_ne m ρ c main_v1 (by decide)).trans (at1_src m ρ c)
theorem at2_dst : W2 m ρ c (Proc.devRef .tc main_v3) = targets m c := (W2_of_ne m ρ c main_v3 (by decide)).trans (at1_dst m ρ c)
theorem at2_norm : W2 m ρ c (Proc.devRef .tc main_v25) = normOf m c := (W2_of_ne m ρ c main_v25 (by decide)).trans (at1_norm m ρ c)
theorem at2_self : W2 m ρ c (Proc.devRef .tc main_v27) = selfOf m c := (W2_of_ne m ρ c main_v27 (by decide)).trans (at1_self m ρ c)
theorem at2_arg4 : W2 m ρ c (Proc.devRef .tc main_arg4) = m ((c : Thread nD τ).loc main_arg4) := (W2_of_ne m ρ c main_arg4 (by decide)).trans (at1_arg4 m ρ c)
theorem at2_arg5 : W2 m ρ c (Proc.devRef .tc main_arg5) = m ((c : Thread nD τ).loc main_arg5) := (W2_of_ne m ρ c main_arg5 (by decide)).trans (at1_arg5 m ρ c)

/-! ## After the second stretch -/

theorem at3_transform : W3 m ρ c (Proc.devRef .tc main_v28) = transform1 m c := by
  refine Eq.trans ?_ (at2_transform m ρ c)
  show after hostOps1 (W2 m ρ c) (Proc.devRef .tc main_v28) = W2 m ρ c (Proc.devRef .tc main_v28); keeps_host hostOps1
theorem at3_src : W3 m ρ c (Proc.devRef .tc main_v1) = sources m c := by
  refine Eq.trans ?_ (at2_src m ρ c)
  show after hostOps1 (W2 m ρ c) (Proc.devRef .tc main_v1) = W2 m ρ c (Proc.devRef .tc main_v1); keeps_host hostOps1
theorem at3_dst : W3 m ρ c (Proc.devRef .tc main_v3) = targets m c := by
  refine Eq.trans ?_ (at2_dst m ρ c)
  show after hostOps1 (W2 m ρ c) (Proc.devRef .tc main_v3) = W2 m ρ c (Proc.devRef .tc main_v3); keeps_host hostOps1
theorem at3_norm : W3 m ρ c (Proc.devRef .tc main_v25) = normOf m c := by
  refine Eq.trans ?_ (at2_norm m ρ c)
  show after hostOps1 (W2 m ρ c) (Proc.devRef .tc main_v25) = W2 m ρ c (Proc.devRef .tc main_v25); keeps_host hostOps1
theorem at3_self : W3 m ρ c (Proc.devRef .tc main_v27) = selfOf m c := by
  refine Eq.trans ?_ (at2_self m ρ c)
  show after hostOps1 (W2 m ρ c) (Proc.devRef .tc main_v27) = W2 m ρ c (Proc.devRef .tc main_v27); keeps_host hostOps1
theorem at3_arg5 : W3 m ρ c (Proc.devRef .tc main_arg5) = m ((c : Thread nD τ).loc main_arg5) := by
  refine Eq.trans ?_ (at2_arg5 m ρ c)
  show after hostOps1 (W2 m ρ c) (Proc.devRef .tc main_arg5) = W2 m ρ c (Proc.devRef .tc main_arg5); keeps_host hostOps1
theorem at3_messages : W3 m ρ c (Proc.devRef .tc main_v41) = aggregate (transform1 m c) (sources m c) (targets m c) (normOf m c) := by
  refine (second_aggregate (W2 m ρ c)).trans ?_
  rw [at2_transform m ρ c, at2_src m ρ c, at2_dst m ρ c, at2_norm m ρ c]
theorem at3_bias : W3 m ρ c (Proc.devRef .tc main_v42) = biasRow (m ((c : Thread nD τ).loc main_arg4)) := by
  refine (second_biasRow (W2 m ρ c)).trans ?_
  rw [at2_arg4 m ρ c]

/-! ## After the first layer's epilogue -/

theorem at4_layer : W4 m ρ c (Proc.devRef .tc main_v43) = layer1 m c := by
  refine (W4_arr m ρ c 4).trans ((Region1.final (V3 m ρ) c).trans ?_)
  unfold Region1.layerOut layer1
  rw [show V3 m ρ c main_v41 = _ from at3_messages m ρ c, show V3 m ρ c main_v28 = _ from at3_transform m ρ c,
    show V3 m ρ c main_v27 = _ from at3_self m ρ c, show V3 m ρ c main_v42 = _ from at3_bias m ρ c]
theorem at4_src : W4 m ρ c (Proc.devRef .tc main_v1) = sources m c := (W4_of_ne m ρ c main_v1 (by decide)).trans (at3_src m ρ c)
theorem at4_dst : W4 m ρ c (Proc.devRef .tc main_v3) = targets m c := (W4_of_ne m ρ c main_v3 (by decide)).trans (at3_dst m ρ c)
theorem at4_norm : W4 m ρ c (Proc.devRef .tc main_v25) = normOf m c := (W4_of_ne m ρ c main_v25 (by decide)).trans (at3_norm m ρ c)
/-- The self-loop weights are an input of the first epilogue: its array is as the region found it. -/
theorem at4_self : W4 m ρ c (Proc.devRef .tc main_v27) = selfOf m c :=
  ((W4_arr m ρ c 2).trans (((dat1 (V3 m ρ) c).arrAt_in 2 rfl _).trans (A_eq1 (V3 m ρ) c 2))).trans (at3_self m ρ c)
theorem at4_arg5 : W4 m ρ c (Proc.devRef .tc main_arg5) = m ((c : Thread nD τ).loc main_arg5) := (W4_of_ne m ρ c main_arg5 (by decide)).trans (at3_arg5 m ρ c)

/-! ## After the second transform -/

theorem at5_transform : W5 m ρ c (Proc.devRef .tc main_v44) = transform2 m c := by
  refine (W5_arr m ρ c 2).trans ((Region2.final (V4 m ρ) c).trans ?_)
  unfold Region2.product transform2
  rw [show V4 m ρ c main_v43 = _ from at4_layer m ρ c, show V4 m ρ c main_arg5 = _ from at4_arg5 m ρ c]
theorem at5_src : W5 m ρ c (Proc.devRef .tc main_v1) = sources m c := (W5_of_ne m ρ c main_v1 (by decide)).trans (at4_src m ρ c)
theorem at5_dst : W5 m ρ c (Proc.devRef .tc main_v3) = targets m c := (W5_of_ne m ρ c main_v3 (by decide)).trans (at4_dst m ρ c)
theorem at5_norm : W5 m ρ c (Proc.devRef .tc main_v25) = normOf m c := (W5_of_ne m ρ c main_v25 (by decide)).trans (at4_norm m ρ c)
theorem at5_self : W5 m ρ c (Proc.devRef .tc main_v27) = selfOf m c := (W5_of_ne m ρ c main_v27 (by decide)).trans (at4_self m ρ c)

/-- The second bias vector, the batch assignment and the head's operands are as launched from here on: each is
    carried unchanged to the last boundary, where it is the launch array. -/
theorem at5_arg6 : W5 m ρ c (Proc.devRef .tc main_arg6) = m ((c : Thread nD τ).loc main_arg6) := by
  refine Eq.trans (Eq.symm ?_) (W9_main_arg6 m ρ c)
  refine (W9_of_ne m ρ c main_arg6 (by decide)).trans ?_
  refine Eq.trans (show after hostOps4 (W7 m ρ c) (Proc.devRef .tc main_arg6) = W7 m ρ c (Proc.devRef .tc main_arg6) by keeps_host hostOps4) ?_
  refine (W7_of_ne m ρ c main_arg6 (by decide)).trans ?_
  show after hostOps3 (W5 m ρ c) (Proc.devRef .tc main_arg6) = W5 m ρ c (Proc.devRef .tc main_arg6); keeps_host hostOps3

/-! ## After the third stretch -/

theorem at6_transform : W6 m ρ c (Proc.devRef .tc main_v44) = transform2 m c := by
  refine Eq.trans ?_ (at5_transform m ρ c)
  show after hostOps3 (W5 m ρ c) (Proc.devRef .tc main_v44) = W5 m ρ c (Proc.devRef .tc main_v44); keeps_host hostOps3
theorem at6_self : W6 m ρ c (Proc.devRef .tc main_v27) = selfOf m c := by
  refine Eq.trans ?_ (at5_self m ρ c)
  show after hostOps3 (W5 m ρ c) (Proc.devRef .tc main_v27) = W5 m ρ c (Proc.devRef .tc main_v27); keeps_host hostOps3
theorem at6_messages : W6 m ρ c (Proc.devRef .tc main_v57) = aggregate (transform2 m c) (sources m c) (targets m c) (normOf m c) := by
  refine (third_aggregate (W5 m ρ c)).trans ?_
  rw [at5_transform m ρ c, at5_src m ρ c, at5_dst m ρ c, at5_norm m ρ c]
theorem at6_bias : W6 m ρ c (Proc.devRef .tc main_v58) = biasRow (m ((c : Thread nD τ).loc main_arg6)) := by
  refine (third_biasRow (W5 m ρ c)).trans ?_
  rw [at5_arg6 m ρ c]

/-! ## After the second layer's epilogue -/

theorem at7_layer : W7 m ρ c (Proc.devRef .tc main_v59) = layer2 m c := by
  refine (W7_arr m ρ c 4).trans ((Region3.final (V6 m ρ) c).trans ?_)
  unfold Region3.layerOut layer2
  rw [show V6 m ρ c main_v57 = _ from at6_messages m ρ c, show V6 m ρ c main_v44 = _ from at6_transform m ρ c,
    show V6 m ρ c main_v27 = _ from at6_self m ρ c, show V6 m ρ c main_v58 = _ from at6_bias m ρ c]
theorem at7_arg2 : W7 m ρ c (Proc.devRef .tc main_arg2) = m ((c : Thread nD τ).loc main_arg2) := by
  refine Eq.trans (Eq.symm ?_) (W9_main_arg2 m ρ c)
  refine (W9_of_ne m ρ c main_arg2 (by decide)).trans ?_
  show after hostOps4 (W7 m ρ c) (Proc.devRef .tc main_arg2) = W7 m ρ c (Proc.devRef .tc main_arg2); keeps_host hostOps4
theorem at7_arg8 : W7 m ρ c (Proc.devRef .tc main_arg8) = m ((c : Thread nD τ).loc main_arg8) := by
  refine Eq.trans (Eq.symm ?_) (W9_main_arg8 m ρ c)
  refine (W9_of_ne m ρ c main_arg8 (by decide)).trans ?_
  show after hostOps4 (W7 m ρ c) (Proc.devRef .tc main_arg8) = W7 m ρ c (Proc.devRef .tc main_arg8); keeps_host hostOps4

/-! ## After the last stretch, and the head -/

theorem at8_sums : W8 m ρ c (Proc.devRef .tc main_v62) = graphSums (layer2 m c) (m ((c : Thread nD τ).loc main_arg2)) := by
  refine (last_graphSums (W7 m ρ c)).trans ?_
  rw [at7_layer m ρ c, at7_arg2 m ρ c]
theorem at8_counts : W8 m ρ c (Proc.devRef .tc main_v67) = countColumn (m ((c : Thread nD τ).loc main_arg2)) := by
  refine (last_countColumn (W7 m ρ c)).trans ?_
  rw [at7_arg2 m ρ c]
theorem at8_cell : W8 m ρ c (Proc.devRef .tc main_v68) = biasCell (m ((c : Thread nD τ).loc main_arg8)) := by
  refine (last_biasCell (W7 m ρ c)).trans ?_
  rw [at7_arg8 m ρ c]
/-- The weight column is an input of the head: its array is as the region found it, and ends as launched. -/
theorem at8_arg7 : W8 m ρ c (Proc.devRef .tc main_arg7) = m ((c : Thread nD τ).loc main_arg7) :=
  (((W9_arr m ρ c 2).trans (((dat4 (V8 m ρ) c).arrAt_in 2 rfl _).trans (A_eq4 (V8 m ρ) c 2))).symm).trans (W9_main_arg7 m ρ c)

/-- The result buffer at the last boundary is the network's output. -/
theorem at9_output : W9 m ρ c (Proc.devRef .tc main_v69) = output m c := by
  refine (W9_arr m ρ c 4).trans ((Region4.final (V8 m ρ) c).trans ?_)
  unfold Region4.headOut output
  rw [show V8 m ρ c main_v62 = _ from at8_sums m ρ c, show V8 m ρ c main_v67 = _ from at8_counts m ρ c,
    show V8 m ρ c main_arg7 = _ from at8_arg7 m ρ c, show V8 m ρ c main_v68 = _ from at8_cell m ρ c]

/-- The same output, as the network function of the nine launch arrays. -/
theorem output_eq_model : output m c
    = Model.output (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := rfl

end Cert.KernelIdeal.Network

end
-- ==== Proof.Reference.lean ====
/-
  The reference program computes the network function.

  Stage by stage the reference's host operations are the network's: its dot_general is the matrix product; its edge
  normalisation, gathers and scatter-adds are the same operations on the same arrays; its sum with the row-scaled
  transform, sum with the broadcast bias and maximum with zero is the layer's epilogue (a vector broadcast to a
  column or a row is that vector cast to it); and its quotient by the clamped counts, dot_general with the weight
  column, broadcast bias and 1 / (1 + exp(-z)) is the mean-pooled logistic head.  The reference computes the degree
  normalisation once per layer; both copies are the same function of the edge list.
-/
import proofs.«158380_j24988119728496_1_alg».proof.Proof.Gen.ReferenceIdeal.Read
import proofs.«158380_j24988119728496_1_alg».proof.Proof.Gen.KernelIdeal
import proofs.«158380_j24988119728496_1_alg».proof.Proof.Model
import proofs.«158380_j24988119728496_1_alg».proof.Proof.LibGcnLayer

set_option maxRecDepth 16384

noncomputable section

namespace Cert.Bridge

open Cert.ReferenceIdeal.Read Cert.KernelIdeal.Stages Cert.LibTileOps Cert.LibGcnLayer Idealize.ShloMosaic

variable (x : FArr Cert.KernelIdeal.S100000x128) (ei : IArr Cert.KernelIdeal.S2x300000) (batch : IArr Cert.KernelIdeal.S100000)
  (w1 : FArr Cert.KernelIdeal.S128x256) (b1 : FArr Cert.KernelIdeal.S256) (w2 : FArr Cert.KernelIdeal.S256x256) (b2 : FArr Cert.KernelIdeal.S256)
  (wf : FArr Cert.KernelIdeal.S256x1) (bf : FArr Cert.KernelIdeal.S1)

/-! ## The edge list's stages -/

theorem ref_norm1 : val_main_v26 (F := Ideal) ei = Cert.KernelIdeal.Model.norm ei := rfl
theorem ref_norm2 : val_main_v71 (F := Ideal) ei = Cert.KernelIdeal.Model.norm ei := rfl

/-! ## The three products are plain matrix products -/

theorem plain1 : Cert.LibPlainDot.Plain Cert.ReferenceIdeal.dot_S100000x128_S128x256_S100000x256_1_0_0_1_n_n := ⟨rfl, rfl, rfl, rfl, rfl, rfl⟩
theorem plain2 : Cert.LibPlainDot.Plain Cert.ReferenceIdeal.dot_S100000x256_S256x256_S100000x256_1_0_0_1_n_n := ⟨rfl, rfl, rfl, rfl, rfl, rfl⟩
theorem plain3 : Cert.LibPlainDot.Plain Cert.ReferenceIdeal.dot_S2048x256_S256x1_S2048x1_1_0_0_1_n_n := ⟨rfl, rfl, rfl, rfl, rfl, rfl⟩

/-! ## The first layer -/

theorem ref_transform1 : val_main_v4 (F := Ideal) x w1 = Cert.KernelIdeal.Model.transform1 x w1 := by
  unfold val_main_v4 Cert.KernelIdeal.Model.transform1
  exact dotGeneral_eq_matProd plain1 none x w1

theorem ref_messages1 : val_main_v39 (F := Ideal) x ei w1
    = aggregate (Cert.KernelIdeal.Model.transform1 x w1) (src ei) (dst ei) (Cert.KernelIdeal.Model.norm ei) := by
  unfold val_main_v39 val_main_v36 val_main_v33
  rw [ref_transform1]
  rfl

theorem ref_layer1 : val_main_v48 (F := Ideal) x ei w1 b1 = Cert.KernelIdeal.Model.layer1 x ei w1 b1 := by
  unfold val_main_v48 val_main_v47 val_main_v46 val_main_v45 val_main_v44 val_main_v43 val_main_v42 val_main_v41
    val_main_call0_v0 val_main_call0_cst
  refine (host_epilogue (A := 100000) (B := 256) _ _ Cert.KernelIdeal.Facts₀.shapeCasts_S100000_S100000x1 _ _
    Cert.KernelIdeal.Facts₀.shapeCasts_S256_S1x256 _ _ _ _ _).trans ?_
  rw [ref_messages1, ref_transform1]
  rfl

/-! ## The second layer -/

theorem ref_transform2 : val_main_v49 (F := Ideal) x ei w1 b1 w2 = Cert.KernelIdeal.Model.transform2 x ei w1 b1 w2 := by
  unfold val_main_v49 Cert.KernelIdeal.Model.transform2
  rw [ref_layer1]
  exact dotGeneral_eq_matProd plain2 none _ w2

theorem ref_messages2 : val_main_v84 (F := Ideal) x ei w1 b1 w2
    = aggregate (Cert.KernelIdeal.Model.transform2 x ei w1 b1 w2) (src ei) (dst ei) (Cert.KernelIdeal.Model.norm ei) := by
  unfold val_main_v84 val_main_v81 val_main_v78
  rw [ref_transform2]
  rfl

theorem ref_layer2 : val_main_v93 (F := Ideal) x ei w1 b1 w2 b2 = Cert.KernelIdeal.Model.layer2 x ei w1 b1 w2 b2 := by
  unfold val_main_v93 val_main_v92 val_main_v91 val_main_v90 val_main_v89 val_main_v88 val_main_v87 val_main_v86
    val_main_call1_v0 val_main_call1_cst
  refine (host_epilogue (A := 100000) (B := 256) _ _ Cert.KernelIdeal.Facts₀.shapeCasts_S100000_S100000x1 _ _
    Cert.KernelIdeal.Facts₀.shapeCasts_S256_S1x256 _ _ _ _ _).trans ?_
  rw [ref_messages2, ref_transform2]
  rfl

/-! ## The pool and the head -/

theorem ref_sums : val_main_v96 (F := Ideal) x ei batch w1 b1 w2 b2
    = graphSums (Cert.KernelIdeal.Model.layer2 x ei w1 b1 w2 b2) batch := by
  unfold val_main_v96
  rw [ref_layer2]
  rfl

theorem ref_counts : val_main_v100 (F := Ideal) batch = graphCounts batch := rfl

theorem ref_output : val_main_v115 (F := Ideal) x ei batch w1 b1 w2 b2 wf bf
    = Cert.KernelIdeal.Model.output x ei batch w1 b1 w2 b2 wf bf := by
  unfold val_main_v115 val_main_v114 val_main_v113 val_main_v112 val_main_v111 val_main_v110 val_main_v109 val_main_v108
    val_main_v107 val_main_v106 val_main_v105 val_main_v104 val_main_v103 val_main_v102 val_main_v101
    val_main_cst_23 val_main_cst_22 val_main_cst_21
  refine (host_logisticHead (A := 2048) (K := 256) (B := 1) plain3 none _ _ _ Cert.KernelIdeal.Facts₀.shapeCasts_S2048_S2048x1 _ _
    Cert.KernelIdeal.Facts₀.shapeCasts_S1_S1x1 _ _ _ _ _).trans ?_
  rw [ref_sums, ref_counts]
  rfl

end Cert.Bridge

end
-- ==== Proof.lean ====
/-
  Two graph-convolution layers, a mean pool and a logistic head: the tiled kernel program against its plain reference.

  Both programs compute, from node features x, an edge list, a graph assignment and the layers' weights:
    h1 = x·W1,   out1 = max(agg(h1) + h1·dinv² + b1, 0),
    h2 = out1·W2, out2 = max(agg(h2) + h2·dinv² + b2, 0),
    result = logistic( (sums(out2) / max(counts, 1))·Wf + bf ),
  where dinv = 1/sqrt(deg), agg scatters row src of its argument scaled by dinv(src)·dinv(dst) into row dst, and sums
  and counts are taken per graph.  The kernel program runs the two products, the two epilogues and the head as tiled
  kernel regions (twenty blocks of 5000 rows; the head in one step) and the gathers and scatters between them as
  host operations; the reference runs everything as host operations.  On the extended reals a tiled product into a
  zero accumulator is the host's dot_general entry by entry, a vector cast to a column or row is the same array as
  that vector broadcast to it, and the logistic function is 1 / (1 + exp(-z)) at every value, the infinities
  included; every other operation is the same operation on the same arrays.  So the two results are one function of
  the arguments, and no entry needs to be finite for that.

  The frames of the two kernel programs are the generated ones; the reference's is its generated run with the result
  dropped; the idealization rewrote nothing, so it preserves the program as it is.
-/
import proofs.«158380_j24988119728496_1_alg».proof.Defs
import proofs.«158380_j24988119728496_1_alg».proof.Proof.Gen.Kernel
import proofs.«158380_j24988119728496_1_alg».proof.Proof.Gen.Kernel.Skeleton
import proofs.«158380_j24988119728496_1_alg».proof.Proof.Gen.Kernel.Launch
import proofs.«158380_j24988119728496_1_alg».proof.Proof.Gen.Kernel.Points
import proofs.«158380_j24988119728496_1_alg».proof.Proof.Gen.Kernel.Frame
import proofs.«158380_j24988119728496_1_alg».proof.Proof.Gen.KernelIdeal
import proofs.«158380_j24988119728496_1_alg».proof.Proof.Gen.KernelIdeal.Skeleton
import proofs.«158380_j24988119728496_1_alg».proof.Proof.Gen.KernelIdeal.Launch
import proofs.«158380_j24988119728496_1_alg».proof.Proof.Gen.KernelIdeal.Points
import proofs.«158380_j24988119728496_1_alg».proof.Proof.Gen.KernelIdeal.Frame
import proofs.«158380_j24988119728496_1_alg».proof.Proof.Gen.ReferenceIdeal
import proofs.«158380_j24988119728496_1_alg».proof.Proof.Gen.Pre_finite_inputs
import proofs.«158380_j24988119728496_1_alg».proof.Proof.Gen.ReferenceIdeal.Run
import proofs.«158380_j24988119728496_1_alg».proof.Proof.Gen.ReferenceIdeal.Read
import proofs.«158380_j24988119728496_1_alg».proof.Proof.KernelRun
import proofs.«158380_j24988119728496_1_alg».proof.Proof.Network
import proofs.«158380_j24988119728496_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network function of the arguments in their result buffers. -/
theorem algebraic : Cert.algebraic_KernelIdeal_ReferenceIdeal := by
  intro m ρ m' ρ' _ hagree
  refine ⟨fun c => Cert.KernelIdeal.Network.output m c, ?_, ?_⟩
  · exact (θ_run Cert.KernelIdeal.defs _ _).mono
      (fun r h c => ⟨(h c).1.trans (Cert.KernelIdeal.Network.at9_output m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v115 m' c = Cert.KernelIdeal.Network.output m c
    rw [Cert.ReferenceIdeal.Read.val_main_v115_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact (Cert.Bridge.ref_output _ _ _ _ _ _ _ _ _).trans (Cert.KernelIdeal.Network.output_eq_model m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
